-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024x1024 : Shape := ⟨2, ![1024, 1024]⟩
abbrev S1024x1024x32 : Shape := ⟨3, ![1024, 1024, 32]⟩
abbrev S160x64 : Shape := ⟨2, ![160, 64]⟩
abbrev S64 : Shape := ⟨1, ![64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x1024x32 : S_.BroadcastsInDim S1024x1024x32 (![] : Fin 0 → Fin S1024x1024x32.rank)
  reducesTo_S1024x1024x32_S_d0_1_2 : S1024x1024x32.ReducesTo [0, 1, 2] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S160x64 .f32) (main_arg5 : FVec F S64 .f32) (main_v13 : IVec S_ 1) (main_v16 : IVec S160x64 1) : IVec S_ 1 :=
  let main_c_5 : IVec S_ 1 := constantI S_ 1 1#1
  let main_v17 : IVec S_ 1 := (fun x v => Host.reduce IntOp.andi x v reducesTo_S160x64_S_d0_1 h_S_) main_v16 main_c_5
  let main_v18 : IVec S_ 1 := andi main_v13 main_v17
  let main_v19 : FVec F S160x64 .f32 := Host.absf main_arg4
  let main_cst_6 : FVec F S_ .f32 := constant S_ .f32 0x7F800000#32
  let main_v20 : FVec F S160x64 .f32 := broadcastInDim S160x64 ![] bcast_S_S160x64 main_cst_6
  let main_v21 : IVec S160x64 1 := cmpf .olt main_v19 main_v20
  let main_c_7 : IVec S_ 1 := constantI S_ 1 1#1
  let main_v22 : IVec S_ 1 := (fun x v => Host.reduce IntOp.andi x v reducesTo_S160x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1024x64 .f32) (main_arg1 : FVec F S1024x1024 .f32) (main_arg2 : FVec F S1024x1024x32 .f32) (main_arg3 : FVec F S160x64 .f32) (main_arg4 : FVec F S160x64 .f32) (main_arg5 : FVec F S64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024x32 .f32 := Host.absf main_arg2
  let main_cst_2 : FVec F S_ .f32 := constant S_ .f32 0x7F800000#32
  let main_v10 : FVec F S1024x1024x32 .f32 := broadcastInDim S1024x1024x32 ![] bcast_S_S1024x1024x32 main_cst_2
  let main_v11 : IVec S1024x1024x32 1 := cmpf .olt main_v9 main_v10
  let main_c_3 : IVec S_ 1 := constantI S_ 1 1#1
  let main_v12 : IVec S_ 1 := (fun x v => Host.reduce IntOp.andi x v reducesTo_S1024x1024x32_S_d0_1_2 h_S_) main_v11 main_c_3
  let main_v13 : IVec S_ 1 := andi main_v8 main_v12
  let main_v14 : FVec F S160x64 .f32 := Host.absf main_arg3
  let main_cst_4 : FVec F S_ .f32 := constant S_ .f32 0x7F800000#32
  let main_v15 : FVec F S160x64 .f32 := broadcastInDim S160x64 ![] bcast_S_S160x64 main_cst_4
  let main_v16 : IVec S160x64 1 := cmpf .olt main_v14 main_v15
  fn_part1 (F := F) main_arg4 main_arg5 main_v13 main_v16
-- ==== Kernel.lean ====
abbrev S1024x64 : Shape := ⟨2, ![1024, 64]⟩
abbrev S1024x1024 : Shape := ⟨2, ![1024, 1024]⟩
abbrev S1024x1024x32 : Shape := ⟨3, ![1024, 1024, 32]⟩
abbrev S160x64 : Shape := ⟨2, ![160, 64]⟩
abbrev S64 : Shape := ⟨1, ![64]⟩
abbrev S64x64 : Shape := ⟨2, ![64, 64]⟩
abbrev S32x64 : Shape := ⟨2, ![32, 64]⟩
abbrev S128x64 : Shape := ⟨2, ![128, 64]⟩
abbrev S128x128x32 : Shape := ⟨3, ![128, 128, 32]⟩
abbrev S128x128 : Shape := ⟨2, ![128, 128]⟩
abbrev S16384x32 : Shape := ⟨2, ![16384, 32]⟩
abbrev S16384x64 : Shape := ⟨2, ![16384, 64]⟩
abbrev S128x128x64 : Shape := ⟨3, ![128, 128, 64]⟩
abbrev S128x128x1 : Shape := ⟨3, ![128, 128, 1]⟩
abbrev S1x1x64 : Shape := ⟨3, ![1, 1, 64]⟩
abbrev S128x1x64 : Shape := ⟨3, ![128, 1, 64]⟩
abbrev S1x128x64 : Shape := ⟨3, ![1, 128, 64]⟩

abbrev nBuf : Space → Nat
  | .hbm => 13
  | .vmem => 18
  | .smem => 0
  | _ => 0

abbrev bufTy : (tb : Table) → Fin (tcTables nBuf tb) → BufTy
  | .hbm, ⟨0, _⟩ => ⟨S1024x64, .f32⟩
  | .hbm, ⟨1, _⟩ => ⟨S1024x1024, .f32⟩
  | .hbm, ⟨2, _⟩ => ⟨S1024x1024x32, .f32⟩
  | .hbm, ⟨3, _⟩ => ⟨S160x64, .f32⟩
  | .hbm, ⟨4, _⟩ => ⟨S160x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S32x64, .f32⟩
  | .hbm, ⟨9, _⟩ => ⟨S64x64, .f32⟩
  | .hbm, ⟨10, _⟩ => ⟨S64x64, .f32⟩
  | .hbm, ⟨11, _⟩ => ⟨S32x64, .f32⟩
  | .hbm, ⟨12, _⟩ => ⟨S1024x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x128x32, .f32⟩
  | .local _ .vmem, ⟨5, _⟩ => ⟨S128x128x32, .f32⟩
  | .local _ .vmem, ⟨6, _⟩ => ⟨S128x128, .f32⟩
  | .local _ .vmem, ⟨7, _⟩ => ⟨S128x128, .f32⟩
  | .local _ .vmem, ⟨8, _⟩ => ⟨S64x64, .f32⟩
  | .local _ .vmem, ⟨9, _⟩ => ⟨S64x64, .f32⟩
  | .local _ .vmem, ⟨10, _⟩ => ⟨S32x64, .f32⟩
  | .local _ .vmem, ⟨11, _⟩ => ⟨S64x64, .f32⟩
  | .local _ .vmem, ⟨12, _⟩ => ⟨S64x64, .f32⟩
  | .local _ .vmem, ⟨13, _⟩ => ⟨S32x64, .f32⟩
  | .local _ .vmem, ⟨14, _⟩ => ⟨S64, .f32⟩
  | .local _ .vmem, ⟨15, _⟩ => ⟨S128x64, .f32⟩
  | .local _ .vmem, ⟨16, _⟩ => ⟨S128x64, .f32⟩
  | .local _ .vmem, ⟨17, _⟩ => ⟨S128x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v70 : BitVec 1 := Scalar.cmpi .eq arg1 c7_i32
  let v71 : BitVec 32 := Scalar.extui v70
  let c0_i32_33 : BitVec 32 := 0#32
  let v72 : BitVec 1 := Scalar.cmpi .ne v71 c0_i32_33
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  slices_S160x64_S64x64_0_0 : S160x64.Slices ![0, 0] S64x64
  slices_S160x64_S64x64_64_0 : S160x64.Slices ![64, 0] S64x64
  slices_S160x64_S32x64_128_0 : S160x64.Slices ![128, 0] S32x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S128x128x32_S128x128x32_0_0_0 : ∀ a, (![0, 0, 0] : Fin 3 → Nat) a + S128x128x32.size a ≤ S128x128x32.size a
  h_S128x128x32 : 0 < S128x128x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  shapeCasts_S128x128x32_S16384x32 : S128x128x32.ShapeCasts S16384x32
  shapeCasts_S16384x64_S128x128x64 : S16384x64.ShapeCasts S128x128x64
  inb_S128x128_S128x128_0_0 : ∀ a, (![0, 0] : Fin 2 → Nat) a + S128x128.size a ≤ S128x128.size a
  h_S128x128 : 0 < S128x128.numel
  shapeCasts_S128x128_S128x128x1 : S128x128.ShapeCasts S128x128x1
  inb_S64_S64_0 : ∀ a, (![0] : Fin 1 → Nat) a + S64.size a ≤ S64.size a
  h_S64 : 0 < S64.numel
  shapeCasts_S64_S1x1x64 : S64.ShapeCasts S1x1x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  broadcasts_S128x128x1_S128x128x64 : S128x128x1.Broadcasts S128x128x64
  broadcasts_S1x1x64_S128x128x64 : S1x1x64.Broadcasts S128x128x64
  reduces_S128x128x64_S128x64 : S128x128x64.Reduces [1] S128x64
  dot_S128x64_S64x64_S128x64_1_0_0_1_n_n_wf : DotDims.WF S128x64 S64x64 S128x64 [1] [0] [0] [1] [] []
  dot_S16384x32_S32x64_S16384x64_1_0_0_1_n_n_wf : DotDims.WF S16384x32 S32x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x32.size a ≤ S1024x1024x32.size a
  hwx0_2 : ∀ i : grid0.Coords, EltTy.bits .f32 = 32 ∨ (Rect.block (s := S1024x1024x32) S128x128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S1024x1024.size a
  hwx0_3 : ∀ i : grid0.Coords, EltTy.bits .f32 = 32 ∨ (Rect.block (s := S1024x1024) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x64.size a ≤ S32x64.size a
  hwx0_9 : ∀ i : grid0.Coords, EltTy.bits .f32 = 32 ∨ (Rect.block (s := S32x64) S32x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S1024x64.size a
  hwx0_11 : ∀ i : grid0.Coords, EltTy.bits .f32 = 32 ∨ (Rect.block (s := S1024x64) S128x64.size (cc0_transform_11 i) (hinb0_11 i)).WholeWords (EltTy.packing .f32)

variable [Facts₀]

def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S32x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S128x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S1024x64 : Shape := ⟨2, ![1024, 64]⟩
abbrev S1024x1024 : Shape := ⟨2, ![1024, 1024]⟩
abbrev S1024x1024x32 : Shape := ⟨3, ![1024, 1024, 32]⟩
abbrev S160x64 : Shape := ⟨2, ![160, 64]⟩
abbrev S64 : Shape := ⟨1, ![64]⟩
abbrev S1024x1x64 : Shape := ⟨3, ![1024, 1, 64]⟩
abbrev S1024x1024x64 : Shape := ⟨3, ![1024, 1024, 64]⟩
abbrev S1x1024x64 : Shape := ⟨3, ![1, 1024, 64]⟩
abbrev S1024x1024x160 : Shape := ⟨3, ![1024, 1024, 160]⟩
abbrev S1024x1024x1 : Shape := ⟨3, ![1024, 1024, 1]⟩
abbrev S1x1x64 : Shape := ⟨3, ![1, 1, 64]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x1024, .f32⟩
  | .hbm, ⟨2, _⟩ => ⟨S1024x1024x32, .f32⟩
  | .hbm, ⟨3, _⟩ => ⟨S160x64, .f32⟩
  | .hbm, ⟨4, _⟩ => ⟨S160x64, .f32⟩
  | .hbm, ⟨5, _⟩ => ⟨S64, .f32⟩
  | .hbm, ⟨6, _⟩ => ⟨S1024x1x64, .f32⟩
  | .hbm, ⟨7, _⟩ => ⟨S1024x1024x64, .f32⟩
  | .hbm, ⟨8, _⟩ => ⟨S1x1024x64, .f32⟩
  | .hbm, ⟨9, _⟩ => ⟨S1024x1024x64, .f32⟩
  | .hbm, ⟨10, _⟩ => ⟨S1024x1024x160, .f32⟩
  | .hbm, ⟨11, _⟩ => ⟨S1024x1024x1, .f32⟩
  | .hbm, ⟨12, _⟩ => ⟨S1024x1024x160, .f32⟩
  | .hbm, ⟨13, _⟩ => ⟨S1024x1024x160, .f32⟩
  | .hbm, ⟨14, _⟩ => ⟨S1024x1024x64, .f32⟩
  | .hbm, ⟨15, _⟩ => ⟨S1x1x64, .f32⟩
  | .hbm, ⟨16, _⟩ => ⟨S1024x1024x64, .f32⟩
  | .hbm, ⟨17, _⟩ => ⟨S1024x1024x64, .f32⟩
  | .hbm, ⟨18, _⟩ => ⟨S1024x1024x64, .f32⟩
  | .hbm, ⟨19, _⟩ => ⟨S1x1x64, .f32⟩
  | .hbm, ⟨20, _⟩ => ⟨S1024x1024x64, .f32⟩
  | .hbm, ⟨21, _⟩ => ⟨S1024x1024x64, .f32⟩
  | .hbm, ⟨22, _⟩ => ⟨S_, .f32⟩
  | .hbm, ⟨23, _⟩ => ⟨S1024x1024x64, .f32⟩
  | .hbm, ⟨24, _⟩ => ⟨S1024x1024x64, .f32⟩
  | .hbm, ⟨25, _⟩ => ⟨S1024x1024x64, .f32⟩
  | .hbm, ⟨26, _⟩ => ⟨S1024x1024x64, .f32⟩
  | .hbm, ⟨27, _⟩ => ⟨S_, .f32⟩
  | .hbm, ⟨28, _⟩ => ⟨S1024x1024x64, .f32⟩
  | .hbm, ⟨29, _⟩ => ⟨S1024x1024x64, .f32⟩
  | .hbm, ⟨30, _⟩ => ⟨S_, .f32⟩
  | .hbm, ⟨31, _⟩ => ⟨S1024x1024x64, .f32⟩
  | .hbm, ⟨32, _⟩ => ⟨S1024x1024x64, .f32⟩
  | .hbm, ⟨33, _⟩ => ⟨S1024x1024x64, .f32⟩
  | .hbm, ⟨34, _⟩ => ⟨S_, .f32⟩
  | .hbm, ⟨35, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S1024x64_S1024x1x64_0_2 : S1024x64.BroadcastsInDim S1024x1x64 (![0, 2] : Fin 2 → Fin S1024x1x64.rank)
  bcast_S1024x1x64_S1024x1024x64_0_1_2 : S1024x1x64.BroadcastsInDim S1024x1024x64 (![0, 1, 2] : Fin 3 → Fin S1024x1024x64.rank)
  bcast_S1024x64_S1x1024x64_1_2 : S1024x64.BroadcastsInDim S1x1024x64 (![1, 2] : Fin 2 → Fin S1x1024x64.rank)
  bcast_S1x1024x64_S1024x1024x64_0_1_2 : S1x1024x64.BroadcastsInDim S1024x1024x64 (![0, 1, 2] : Fin 3 → Fin S1024x1024x64.rank)
  concatenates_S1024x1024x64_S1024x1024x64_S1024x1024x32_S1024x1024x160_d2 : Shape.Concatenates [S1024x1024x64, S1024x1024x64, S1024x1024x32] S1024x1024x160 2
  bcast_S1024x1024_S1024x1024x1_0_1 : S1024x1024.BroadcastsInDim S1024x1024x1 (![0, 1] : Fin 2 → Fin S1024x1024x1.rank)
  bcast_S1024x1024x1_S1024x1024x160_0_1_2 : S1024x1024x1.BroadcastsInDim S1024x1024x160 (![0, 1, 2] : Fin 3 → Fin S1024x1024x160.rank)
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  reducesTo_S1024x1024x64_S1024x64_d1 : S1024x1024x64.ReducesTo [1] S1024x64
  h_S_ : 0 < S_.numel
  dot_S1024x1024x160_S160x64_S1024x1024x64_2_0_01_1_n_n_wf : DotDims.WF S1024x1024x160 S160x64 S1024x1024x64 [2] [0] [0, 1] [1] [] []

variable [Facts₀]

def dot_S1024x1024x160_S160x64_S1024x1024x64_2_0_01_1_n_n : DotDims S1024x1024x160 S160x64 S1024x1024x64 where
  lhsContracting := [2]
  rhsContracting := [0]
  lhsNonContracting := [0, 1]
  rhsNonContracting := [1]
  lhsBatch := []
  rhsBatch := []
  wf := dot_S1024x1024x160_S160x64_S1024x1024x64_2_0_01_1_n_n_wf

class Facts : Prop extends Facts₀ where

variable [Facts]
-- ==== Proof.KernelFrame.Kit.lean ====
/-
  The tiled kernel's run, first part: the program up to its one kernel region, the blocks its windows hold at
  each grid point, and where on the 8 x 8 grid the body's two conditionals fire.

  The grid point t = 8 i + j handles first-node tile i and second-node tile j. The running sum lives in a scratch
  buffer: it is zeroed when j = 0 and copied to the output block when j = 7. Every input window's staging buffer
  holds that window's block of its array at every point, whether or not the block was fetched there.
-/
import proofs.«126757_j3418793968215_1_alg».proof.Proof.Gen.Kernel.Launch
import proofs.«126757_j3418793968215_1_alg».proof.Proof.Gen.Kernel.Skeleton
import proofs.«126757_j3418793968215_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The TensorCore buffers' contents when the region is entered: after the six slices of the weight matrices. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the six slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals over the grid -/

/-- The first conditional (zero the running sum): the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional (copy the running sum out): the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
/-- Where the second conditional does not fire the output window is idle and is not written back. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
/-- Where it fires the output window is live. -/
theorem liveAt0_11 : ∀ t : Fin cfg0.N, cond0_1 (grid0.coords t) → cfg0.idle 11 (grid0.coords t) = false := by decide +kernel

/-! ## The staging memrefs at a point, and the scratch -/

abbrev ms0_0 (t : Fin cfg0.N) : Memref sig .tc .vmem S128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x64 .f32 := win0_11.stage (cfg0.slots t 11)
abbrev hs0_11 (t : Fin cfg0.N) : (ms0_11 t).IsWhole := hstage0_11 ((cfg0.slots t 11).cast nbuf0_11)
/-- One staging buffer of the output window, through which its contents are stated. -/
abbrev VO0_11 : View sig .tc .vmem S128x64 .f32 := (Memref.whole cc0_stg11_0 : Memref sig .tc .vmem S128x64 .f32).view
/-- The scratch buffer that carries the running sum between points. -/
abbrev scM0_0 : Memref sig .tc .vmem S128x64 .f32 := Memref.whole cc0_scratch0
abbrev VS0_0 : View sig .tc .vmem S128x64 .f32 := scM0_0.view

/-- The scoped buffers that are no staging buffer are the scratch alone, owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d)) := by
  rw [scopedRest0_eq]; simp only [scM0_0, owns_whole]; try rfl

end Cert.Kernel.Fr

end
-- ==== Proof.KernelFrame.RunA.lean ====
/-
  The body's run on one grid point in case A: the running sum is zeroed first (second coordinate 0) and not copied out.
  Holding every input window's staging buffer at its contents, the output's and the scratch, the body runs to its end,
  hands the inputs back unchanged, and leaves in the scratch the stores it made, as a list of pieces.
-/
import proofs.«126757_j3418793968215_1_alg».proof.Proof.KernelFrame.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A: the pieces the body's stores leave (output window, then scratch), with the body's triple. -/
noncomputable def kernelRun0_A (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) :
    Σ' (L11 : List (View.Piece (Elt F) S128x64 .f32)), { LS0 : List (View.Piece (Elt F) S128x64 .f32) //
      ∀ (xi11 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi11 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.Kernel.Fr

end
-- ==== Proof.KernelFrame.RunB.lean ====
/-
  The body's run on one grid point in case B: the running sum is neither zeroed nor copied out (second coordinate 1 to 6).
  Holding every input window's staging buffer at its contents, the output's and the scratch, the body runs to its end,
  hands the inputs back unchanged, and leaves in the scratch the stores it made, as a list of pieces.
-/
import proofs.«126757_j3418793968215_1_alg».proof.Proof.KernelFrame.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: the pieces the body's stores leave (output window, then scratch), with the body's triple. -/
noncomputable def kernelRun0_B (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) :
    Σ' (L11 : List (View.Piece (Elt F) S128x64 .f32)), { LS0 : List (View.Piece (Elt F) S128x64 .f32) //
      ∀ (xi11 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi11 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.Kernel.Fr

end
-- ==== Proof.KernelFrame.RunC.lean ====
/-
  The body's run on one grid point in case C: the running sum is copied to the output block at the end (second coordinate 7).
  Holding every input window's staging buffer at its contents, the output's and the scratch, the body runs to its end,
  hands the inputs back unchanged, and leaves in the scratch and in the output buffer the stores it made, as a list of pieces.
-/
import proofs.«126757_j3418793968215_1_alg».proof.Proof.KernelFrame.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: the pieces the body's stores leave (output window, then scratch), with the body's triple. -/
noncomputable def kernelRun0_C (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) :
    Σ' (L11 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact HS0

end Cert.Kernel.Fr

end
-- ==== Proof.KernelFrame.Data.lean ====
/-
  The tiled kernel's run, last part: what the scratch buffer (the running sum) and the output block hold after each
  grid point, the per-point obligation of the kernel body, and the run of the whole program.

  After point t the scratch holds the body's update of what it held before (of zeros when the second grid
  coordinate is 0); the output block is stored only when the second coordinate is 7, and then holds the running
  sum. The node-feature array is read through two windows (rows of the first-node tile and rows of the second-node
  tile); the two windows hold it at complementary half shares.
-/
import proofs.«126757_j3418793968215_1_alg».proof.Proof.KernelFrame.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A placeholder for the output block at the points that do not store it: nothing consults it. -/
def outIdle : Vec F S128x64 .f32 := VO0_11.read (Elt F) VO0_11.junk

/-- Case A's stores into the scratch cover it. -/
theorem scover0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (y : S128x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1 S128x64.size (by sl_kernel_rfl) y
/-- What case A leaves in the scratch. -/
def sout0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) : Vec F S128x64 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1)

/-- Case B's store into the scratch covers it. -/
theorem scover0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) (y : S128x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1 S128x64.size (by sl_kernel_rfl) y
/-- What case B leaves in the scratch. -/
def sout0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) : Vec F S128x64 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1)

/-- Case C's store into the output block covers it. -/
theorem cover0_C_11 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) (y : S128x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).1 S128x64.size (by sl_kernel_rfl) y
/-- What case C leaves in the output block. -/
def out0_C_11 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) : Vec F S128x64 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).1)
/-- Case C's store into the scratch covers it. -/
theorem scover0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) (y : S128x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1 S128x64.size (by sl_kernel_rfl) y
/-- What case C leaves in the scratch. -/
def sout0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) : Vec F S128x64 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1)

/-! ## Point by point -/

/-- What the output block (first component) and the scratch (second) hold after the body at position n: the case
    the position is in, run on the point's blocks, over what the position before left in the scratch. -/
def outsAt0 (c : Dev nD) : (n : ℕ) → n < cfg0.N → Vec F S128x64 .f32 × Vec F S128x64 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 8 = 0 then
      if h1 : (n + 1) % 8 = 7 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      if h1 : (n + 1) % 8 = 7 then
        (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (outIdle, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (outIdle, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: at first the scratch at anything, afterwards the scratch at what the
    position before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare ((outsAt0 m c n hn).2) := rfl
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body each input's buffer at its block and the output's at
    outsAt0; the invariant PhiS; the node-feature array at the left half share for window 0 and the right half for
    window 1, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

end Cert.Kernel.Fr

end
-- ==== Proof.KernelFrame.Body.lean ====
/-
  The tiled kernel's run: the kernel body's obligation at every grid point. Handed the invariant (the scratch at what
  the point before left), each input window's staging buffer at its block and the output's at what it holds, the
  body runs in the case the point is in and hands back the inputs as they were, the scratch at this point's running
  sum, and the output block stored (second coordinate 7) or untouched.
-/
import proofs.«126757_j3418793968215_1_alg».proof.Proof.KernelFrame.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  by_cases h0 : t.val % 8 = 0
  · have h1 : ¬t.val % 8 = 7 := by omega
    rw [Dat.leavesExact_idle (dats m 0 c) 11 t (idleAt0_11 t (fun h => h1 ((hcond0_1 t).mp h))) (noFlush0_11 t (fun h => h1 ((hcond0_1 t).mp h)))]
    rw [outsAt0_A m c t h0 h1]
    unfold sout0_A_0; (try dsimp only)
    by_cases hz : t.val = 0
    · rw [PhiS_castSucc m c t, PhiS_zero m c _ _ hz, scoped_eq]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      iintro ⟨H0, H1, H2, H3, H4, H5, H6, H7, H8, H9, H10, H11, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun h => h0 (by rw [h])
    by_cases h1 : t.val % 8 = 7
    · rw [show (dats m 0 c).leavesExact 11 t = owns (c : Thread nD τ) (ms0_11 t) fullShare ((dats m 0 c).after 11 t) from by
        unfold Dat.leavesExact; rw [liveAt0_11 t ((hcond0_1 t).mpr h1)], after0_11]
      rw [outsAt0_C m c t h0 h1]
      unfold out0_C_11 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover0_C_11 c _ _ _ _ _ _ _ _ _ _ _ _ _ _ _ _ _ _ _ _ _ _ _ _ _ _ _ _ _ _ _ _ _ _ _ _ _ _ _ _ _)
    · rw [Dat.leavesExact_idle (dats m 0 c) 11 t (idleAt0_11 t (fun h => h1 ((hcond0_1 t).mp h))) (noFlush0_11 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scratch back at some contents. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro HS0
  isplitr; · iempintro
  iexists _; iexact HS0

end Cert.Kernel.Fr

end
-- ==== Proof.KernelFrame.Run.lean ====
/-
  The tiled kernel's run: the launch of the region and the run of the whole program.

  The node-feature array is handed to the kernel through two windows. At the region's entry its buffer, held whole,
  is split into two half shares, one per window; every other window's array is held whole. The region then runs the
  body at the 64 grid points in order; at the end every array holds what the write-backs left in it (an input its
  entry contents), and every other unscoped buffer what it held at the region's entry.
-/
import proofs.«126757_j3418793968215_1_alg».proof.Proof.KernelFrame.Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the slices leave untouched -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arrays at the region's entry -/

/-- Each window's array in the proof data's form is its buffer's points-to at the window's share. -/
theorem arrays_eq' (c : Dev nD) :
    (dats m 0 c).arrays ((dats m 0 c).arrAt · 0)
      = bigSep Finset.univ fun w : Fin 12 => (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The distinct buffers behind the windows' arrays, conjoined one by one. -/
theorem bigSep_arrs {M : Type} [URA M] (Φ : Ref sig .tc → sProp M) :
    bigSep (Finset.univ.image (Pipeline.arrRef spec0)) Φ = iprop(Φ main_arg0 ∗ Φ main_arg2 ∗ Φ main_arg1 ∗ Φ main_v0 ∗ Φ main_v1 ∗ Φ main_v2 ∗ Φ main_v3 ∗ Φ main_v4 ∗ Φ main_v5 ∗ Φ main_arg5 ∗ Φ main_v6) :=
  bigSep_eq_bigSepL_of_eq [main_arg0, main_arg2, main_arg1, main_v0, main_v1, main_v2, main_v3, main_v4, main_v5, main_arg5, main_v6] (by decide) (by decide) Φ

/-- The buffers behind the windows' arrays, each whole at the full share, make the windows' arrays: the
    node-feature buffer splits into the two half shares of its two windows. -/
theorem hsplit (c : Dev nD) : (Pipeline.arrBufs spec0 c (V m c) : sProp 𝕄) ⊢ (dats m 0 c).arrays ((dats m 0 c).arrAt · 0) := by
  rw [arrays_eq', bigSep_W0]
  unfold Pipeline.arrBufs
  rw [bigSep_arrs]
  iintro ⟨H0, H2, H3, H4, H5, H6, H7, H8, H9, H10, H11⟩
  ihave H01 := (pointsTo_share (PosShare.mem_left_op_right fullShare)).1 $$ H0
  icases H01 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The run -/

set_option backward.isDefEq.respectTransparency.types false in
/-- Every weakly fair execution of the program terminates, and in every final state each window's array holds what
    the write-backs left and every other unscoped buffer what it held at the region's entry. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.Kernel.Fr.run_main' depends on axioms: [propext, Classical.choice, Quot.sound] -/
#guard_msgs in #print axioms run_main

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).1 2).trans (((dats m 0 c).arrAt_in 2 rfl _).trans ((A_eq m c 2).trans (V_main_arg2 m c))),
     ((h c).2 main_arg3 (Pipeline.mem_restRefs_of main_arg3 rfl (by decide))).trans (V_main_arg3 m c),
     ((h c).2 main_arg4 (Pipeline.mem_restRefs_of main_arg4 rfl (by decide))).trans (V_main_arg4 m c),
     ((h c).1 10).trans (((dats m 0 c).arrAt_in 10 rfl _).trans ((A_eq m c 10).trans (V_main_arg5 m c)))⟩) (run_main m ρ)

end Cert.Kernel.Fr

end
-- ==== Proof.KernelIdealFrame.Kit.lean ====
/-
  The tiled kernel's run, first part: the program up to its one kernel region, the blocks its windows hold at
  each grid point, and where on the 8 x 8 grid the body's two conditionals fire.

  The grid point t = 8 i + j handles first-node tile i and second-node tile j. The running sum lives in a scratch
  buffer: it is zeroed when j = 0 and copied to the output block when j = 7. Every input window's staging buffer
  holds that window's block of its array at every point, whether or not the block was fetched there.
-/
import proofs.«126757_j3418793968215_1_alg».proof.Proof.Gen.KernelIdeal.Launch
import proofs.«126757_j3418793968215_1_alg».proof.Proof.Gen.KernelIdeal.Skeleton
import proofs.«126757_j3418793968215_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The TensorCore buffers' contents when the region is entered: after the six slices of the weight matrices. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the six slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals over the grid -/

/-- The first conditional (zero the running sum): the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional (copy the running sum out): the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
/-- Where the second conditional does not fire the output window is idle and is not written back. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
/-- Where it fires the output window is live. -/
theorem liveAt0_11 : ∀ t : Fin cfg0.N, cond0_1 (grid0.coords t) → cfg0.idle 11 (grid0.coords t) = false := by decide +kernel

/-! ## The staging memrefs at a point, and the scratch -/

abbrev ms0_0 (t : Fin cfg0.N) : Memref sig .tc .vmem S128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x64 .f32 := win0_11.stage (cfg0.slots t 11)
abbrev hs0_11 (t : Fin cfg0.N) : (ms0_11 t).IsWhole := hstage0_11 ((cfg0.slots t 11).cast nbuf0_11)
/-- One staging buffer of the output window, through which its contents are stated. -/
abbrev VO0_11 : View sig .tc .vmem S128x64 .f32 := (Memref.whole cc0_stg11_0 : Memref sig .tc .vmem S128x64 .f32).view
/-- The scratch buffer that carries the running sum between points. -/
abbrev scM0_0 : Memref sig .tc .vmem S128x64 .f32 := Memref.whole cc0_scratch0
abbrev VS0_0 : View sig .tc .vmem S128x64 .f32 := scM0_0.view

/-- The scoped buffers that are no staging buffer are the scratch alone, owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d)) := by
  rw [scopedRest0_eq]; simp only [scM0_0, owns_whole]; try rfl

end Cert.KernelIdeal.Fr

end
-- ==== Proof.KernelIdealFrame.RunA.lean ====
/-
  The body's run on one grid point in case A: the running sum is zeroed first (second coordinate 0) and not copied out.
  Holding every input window's staging buffer at its contents, the output's and the scratch, the body runs to its end,
  hands the inputs back unchanged, and leaves in the scratch the stores it made, as a list of pieces.
-/
import proofs.«126757_j3418793968215_1_alg».proof.Proof.KernelIdealFrame.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A: the pieces the body's stores leave (output window, then scratch), with the body's triple. -/
noncomputable def kernelRun0_A (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) :
    Σ' (L11 : List (View.Piece (Elt F) S128x64 .f32)), { LS0 : List (View.Piece (Elt F) S128x64 .f32) //
      ∀ (xi11 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi11 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.KernelIdeal.Fr

end
-- ==== Proof.KernelIdealFrame.RunB.lean ====
/-
  The body's run on one grid point in case B: the running sum is neither zeroed nor copied out (second coordinate 1 to 6).
  Holding every input window's staging buffer at its contents, the output's and the scratch, the body runs to its end,
  hands the inputs back unchanged, and leaves in the scratch the stores it made, as a list of pieces.
-/
import proofs.«126757_j3418793968215_1_alg».proof.Proof.KernelIdealFrame.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: the pieces the body's stores leave (output window, then scratch), with the body's triple. -/
noncomputable def kernelRun0_B (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) :
    Σ' (L11 : List (View.Piece (Elt F) S128x64 .f32)), { LS0 : List (View.Piece (Elt F) S128x64 .f32) //
      ∀ (xi11 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi11 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS0

end Cert.KernelIdeal.Fr

end
-- ==== Proof.KernelIdealFrame.RunC.lean ====
/-
  The body's run on one grid point in case C: the running sum is copied to the output block at the end (second coordinate 7).
  Holding every input window's staging buffer at its contents, the output's and the scratch, the body runs to its end,
  hands the inputs back unchanged, and leaves in the scratch and in the output buffer the stores it made, as a list of pieces.
-/
import proofs.«126757_j3418793968215_1_alg».proof.Proof.KernelIdealFrame.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: the pieces the body's stores leave (output window, then scratch), with the body's triple. -/
noncomputable def kernelRun0_C (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) :
    Σ' (L11 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact HS0

end Cert.KernelIdeal.Fr

end
-- ==== Proof.KernelIdealFrame.Data.lean ====
/-
  The tiled kernel's run, last part: what the scratch buffer (the running sum) and the output block hold after each
  grid point, the per-point obligation of the kernel body, and the run of the whole program.

  After point t the scratch holds the body's update of what it held before (of zeros when the second grid
  coordinate is 0); the output block is stored only when the second coordinate is 7, and then holds the running
  sum. The node-feature array is read through two windows (rows of the first-node tile and rows of the second-node
  tile); the two windows hold it at complementary half shares.
-/
import proofs.«126757_j3418793968215_1_alg».proof.Proof.KernelIdealFrame.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A placeholder for the output block at the points that do not store it: nothing consults it. -/
def outIdle : Vec F S128x64 .f32 := VO0_11.read (Elt F) VO0_11.junk

/-- Case A's stores into the scratch cover it. -/
theorem scover0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (y : S128x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1 S128x64.size (by sl_kernel_rfl) y
/-- What case A leaves in the scratch. -/
def sout0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) : Vec F S128x64 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10).2.1)

/-- Case B's store into the scratch covers it. -/
theorem scover0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) (y : S128x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1 S128x64.size (by sl_kernel_rfl) y
/-- What case B leaves in the scratch. -/
def sout0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) : Vec F S128x64 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1)

/-- Case C's store into the output block covers it. -/
theorem cover0_C_11 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) (y : S128x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).1 S128x64.size (by sl_kernel_rfl) y
/-- What case C leaves in the output block. -/
def out0_C_11 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) : Vec F S128x64 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).1)
/-- Case C's store into the scratch covers it. -/
theorem scover0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) (y : S128x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1 S128x64.size (by sl_kernel_rfl) y
/-- What case C leaves in the scratch. -/
def sout0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) : Vec F S128x64 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0).2.1)

/-! ## Point by point -/

/-- What the output block (first component) and the scratch (second) hold after the body at position n: the case
    the position is in, run on the point's blocks, over what the position before left in the scratch. -/
def outsAt0 (c : Dev nD) : (n : ℕ) → n < cfg0.N → Vec F S128x64 .f32 × Vec F S128x64 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 8 = 0 then
      if h1 : (n + 1) % 8 = 7 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      if h1 : (n + 1) % 8 = 7 then
        (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (outIdle, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (outIdle, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: at first the scratch at anything, afterwards the scratch at what the
    position before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare ((outsAt0 m c n hn).2) := rfl
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body each input's buffer at its block and the output's at
    outsAt0; the invariant PhiS; the node-feature array at the left half share for window 0 and the right half for
    window 1, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

end Cert.KernelIdeal.Fr

end
-- ==== Proof.KernelIdealFrame.Body.lean ====
/-
  The tiled kernel's run: the kernel body's obligation at every grid point. Handed the invariant (the scratch at what
  the point before left), each input window's staging buffer at its block and the output's at what it holds, the
  body runs in the case the point is in and hands back the inputs as they were, the scratch at this point's running
  sum, and the output block stored (second coordinate 7) or untouched.
-/
import proofs.«126757_j3418793968215_1_alg».proof.Proof.KernelIdealFrame.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  by_cases h0 : t.val % 8 = 0
  · have h1 : ¬t.val % 8 = 7 := by omega
    rw [Dat.leavesExact_idle (dats m 0 c) 11 t (idleAt0_11 t (fun h => h1 ((hcond0_1 t).mp h))) (noFlush0_11 t (fun h => h1 ((hcond0_1 t).mp h)))]
    rw [outsAt0_A m c t h0 h1]
    unfold sout0_A_0; (try dsimp only)
    by_cases hz : t.val = 0
    · rw [PhiS_castSucc m c t, PhiS_zero m c _ _ hz, scoped_eq]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      iintro ⟨H0, H1, H2, H3, H4, H5, H6, H7, H8, H9, H10, H11, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun h => h0 (by rw [h])
    by_cases h1 : t.val % 8 = 7
    · rw [show (dats m 0 c).leavesExact 11 t = owns (c : Thread nD τ) (ms0_11 t) fullShare ((dats m 0 c).after 11 t) from by
        unfold Dat.leavesExact; rw [liveAt0_11 t ((hcond0_1 t).mpr h1)], after0_11]
      rw [outsAt0_C m c t h0 h1]
      unfold out0_C_11 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover0_C_11 c _ _ _ _ _ _ _ _ _ _ _ _ _ _ _ _ _ _ _ _ _ _ _ _ _ _ _ _ _ _ _ _ _ _ _ _ _ _ _ _ _)
    · rw [Dat.leavesExact_idle (dats m 0 c) 11 t (idleAt0_11 t (fun h => h1 ((hcond0_1 t).mp h))) (noFlush0_11 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      iintro ⟨H0, H1, H2, H3, H4, H5, H6, H7, H8, H9, H10, H11, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl]
  iintro ⟨-, H⟩; iexact H

/-- After the last point the invariant gives the scratch back at some contents. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro HS0
  isplitr; · iempintro
  iexists _; iexact HS0

end Cert.KernelIdeal.Fr

end
-- ==== Proof.KernelIdealFrame.Run.lean ====
/-
  The tiled kernel's run: the launch of the region and the run of the whole program.

  The node-feature array is handed to the kernel through two windows. At the region's entry its buffer, held whole,
  is split into two half shares, one per window; every other window's array is held whole. The region then runs the
  body at the 64 grid points in order; at the end every array holds what the write-backs left in it (an input its
  entry contents), and every other unscoped buffer what it held at the region's entry.
-/
import proofs.«126757_j3418793968215_1_alg».proof.Proof.KernelIdealFrame.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the slices leave untouched -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arrays at the region's entry -/

/-- Each window's array in the proof data's form is its buffer's points-to at the window's share. -/
theorem arrays_eq' (c : Dev nD) :
    (dats m 0 c).arrays ((dats m 0 c).arrAt · 0)
      = bigSep Finset.univ fun w : Fin 12 => (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The distinct buffers behind the windows' arrays, conjoined one by one. -/
theorem bigSep_arrs {M : Type} [URA M] (Φ : Ref sig .tc → sProp M) :
    bigSep (Finset.univ.image (Pipeline.arrRef spec0)) Φ = iprop(Φ main_arg0 ∗ Φ main_arg2 ∗ Φ main_arg1 ∗ Φ main_v0 ∗ Φ main_v1 ∗ Φ main_v2 ∗ Φ main_v3 ∗ Φ main_v4 ∗ Φ main_v5 ∗ Φ main_arg5 ∗ Φ main_v6) :=
  bigSep_eq_bigSepL_of_eq [main_arg0, main_arg2, main_arg1, main_v0, main_v1, main_v2, main_v3, main_v4, main_v5, main_arg5, main_v6] (by decide) (by decide) Φ

/-- The buffers behind the windows' arrays, each whole at the full share, make the windows' arrays: the
    node-feature buffer splits into the two half shares of its two windows. -/
theorem hsplit (c : Dev nD) : (Pipeline.arrBufs spec0 c (V m c) : sProp 𝕄) ⊢ (dats m 0 c).arrays ((dats m 0 c).arrAt · 0) := by
  rw [arrays_eq', bigSep_W0]
  unfold Pipeline.arrBufs
  rw [bigSep_arrs]
  iintro ⟨H0, H2, H3, H4, H5, H6, H7, H8, H9, H10, H11⟩
  ihave H01 := (pointsTo_share (PosShare.mem_left_op_right fullShare)).1 $$ H0
  icases H01 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The run -/

set_option backward.isDefEq.respectTransparency.types false in
/-- Every weakly fair execution of the program terminates, and in every final state each window's array holds what
    the write-backs left and every other unscoped buffer what it held at the region's entry. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.KernelIdeal.Fr.run_main' depends on axioms: [propext, Classical.choice, Quot.sound] -/
#guard_msgs in #print axioms run_main

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).1 2).trans (((dats m 0 c).arrAt_in 2 rfl _).trans ((A_eq m c 2).trans (V_main_arg2 m c))),
     ((h c).2 main_arg3 (Pipeline.mem_restRefs_of main_arg3 rfl (by decide))).trans (V_main_arg3 m c),
     ((h c).2 main_arg4 (Pipeline.mem_restRefs_of main_arg4 rfl (by decide))).trans (V_main_arg4 m c),
     ((h c).1 10).trans (((dats m 0 c).arrAt_in 10 rfl _).trans ((A_eq m c 10).trans (V_main_arg5 m c)))⟩) (run_main m ρ)

end Cert.KernelIdeal.Fr

end
-- ==== Proof.KernelIdealFrame.Pieces.lean ====
/-
  What each case of the body leaves in the scratch buffer and in the output block, as the step's arithmetic.

  In every case the scratch ends holding one step of the tiled evaluation applied to the point's blocks and to the
  running sum it started from: the zero fill when the second grid coordinate is 0, what the scratch held before
  otherwise. When the second coordinate is 7 the output block receives a copy of that same value. Each store covers
  its whole buffer and each load reads a whole buffer, so the last store's payload is what a buffer holds, and a
  load after a store reads that store's payload.
-/
import proofs.«126757_j3418793968215_1_alg».proof.Proof.KernelIdealFrame.Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-buffer rectangle of rank 1 are zero. -/
theorem hz1 : (![0] : Fin 1 → Nat) = fun _ => 0 := funext fun a => by fin_cases a <;> rfl
/-- The offsets of a whole-buffer rectangle of rank 2 are zero. -/
theorem hz2 : (![0, 0] : Fin 2 → Nat) = fun _ => 0 := funext fun a => by fin_cases a <;> rfl
/-- The offsets of a whole-buffer rectangle of rank 3 are zero. -/
theorem hz3 : (![0, 0, 0] : Fin 3 → Nat) = fun _ => 0 := funext fun a => by fin_cases a <;> rfl

/-- Case A (second coordinate 0): the scratch is zero-filled, then holds one step from the zero fill. -/
theorem sout0_A_0_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10
      = k0_pay1 (k0_pay5 x6) (k0_pay6 x9) (k0_pay7 x0 x4) (k0_pay8 x1 x5) (k0_pay9 x0 x7) (k0_pay10 x1 x8) (k0_pay11 x2) x3 x10 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10)]
  unfold kernelRun0_A
  dsimp only
  sl_unfold_words
  rw [View.canon_cons_unit_zero (S := S128x64) hz2, View.readCov_unit_zero (S := S128x64) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg14.read_unread,
    View.ld_unit_zero (S := S128x64) hz2, View.ld_unit_zero (S := S128x128x32) hz3, View.ld_unit_zero (S := S128x128) hz2,
    View.ld_unit_zero (S := S64x64) hz2, View.ld_unit_zero (S := S32x64) hz2, View.ld_unit_zero (S := S64) hz1]

/-- Case B (second coordinate 1 to 6): the scratch holds one step from what it held before. -/
theorem sout0_B_0_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : ¬cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = k0_pay1 (k0_pay5 x6) (k0_pay6 x9) (k0_pay7 x0 x4) (k0_pay8 x1 x5) (k0_pay9 x0 x7) (k0_pay10 x1 x8) (k0_pay11 x2) x3 x10 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_B
  dsimp only
  sl_unfold_words
  rw [View.canon_unit_zero (S := S128x64) hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg14.read_unread,
    View.ld_unit_zero (S := S128x64) hz2, View.ld_unit_zero (S := S128x128x32) hz3, View.ld_unit_zero (S := S128x128) hz2,
    View.ld_unit_zero (S := S64x64) hz2, View.ld_unit_zero (S := S32x64) hz2, View.ld_unit_zero (S := S64) hz1]

/-- Case C (second coordinate 7): the scratch holds one step from what it held before. -/
theorem sout0_C_0_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = k0_pay1 (k0_pay5 x6) (k0_pay6 x9) (k0_pay7 x0 x4) (k0_pay8 x1 x5) (k0_pay9 x0 x7) (k0_pay10 x1 x8) (k0_pay11 x2) x3 x10 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero (S := S128x64) hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg14.read_unread,
    View.ld_unit_zero (S := S128x64) hz2, View.ld_unit_zero (S := S128x128x32) hz3, View.ld_unit_zero (S := S128x128) hz2,
    View.ld_unit_zero (S := S64x64) hz2, View.ld_unit_zero (S := S32x64) hz2, View.ld_unit_zero (S := S64) hz1]

/-- Case C: the output block receives the scratch's new value, the same step. -/
theorem out0_C_11_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S128x128x32 .f32) (harg4 : arg4.IsWhole) (arg5 : Memref sig .tc .vmem S128x128 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S32x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S32x64 .f32) (harg11 : arg11.IsWhole) (arg12 : Memref sig .tc .vmem S64 .f32) (harg12 : arg12.IsWhole) (arg13 : Memref sig .tc .vmem S128x64 .f32) (harg13 : arg13.IsWhole) (arg14 : Memref sig .tc .vmem S128x64 .f32) (harg14 : arg14.IsWhole) (hc0 : ¬cond0_0 i) (hc1 : cond0_1 i)
    (x0 : Vec F S128x64 .f32) (x1 : Vec F S128x64 .f32) (x2 : Vec F S128x128x32 .f32) (x3 : Vec F S128x128 .f32) (x4 : Vec F S64x64 .f32) (x5 : Vec F S64x64 .f32) (x6 : Vec F S32x64 .f32) (x7 : Vec F S64x64 .f32) (x8 : Vec F S64x64 .f32) (x9 : Vec F S32x64 .f32) (x10 : Vec F S64 .f32) (xs0 : Vec F S128x64 .f32) :
    out0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0
      = k0_pay1 (k0_pay5 x6) (k0_pay6 x9) (k0_pay7 x0 x4) (k0_pay8 x1 x5) (k0_pay9 x0 x7) (k0_pay10 x1 x8) (k0_pay11 x2) x3 x10 xs0 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero (S := S128x64) hz2, View.readCov_unit_zero (S := S128x64) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread, harg14.read_unread,
    View.ld_unit_zero (S := S128x64) hz2, View.ld_unit_zero (S := S128x128x32) hz3, View.ld_unit_zero (S := S128x128) hz2,
    View.ld_unit_zero (S := S64x64) hz2, View.ld_unit_zero (S := S32x64) hz2, View.ld_unit_zero (S := S64) hz1]

end Cert.KernelIdeal.Fr

end
-- ==== Proof.Spec.lean ====
/-
  The mathematics of the gated pair layer, over the extended reals.

  For node features H (1024 x 64), pair mask A (1024 x 1024), pair features E (1024 x 1024 x 32), two weight
  matrices W and Wa (160 x 64 each: 64 rows for the first node, 64 for the second, 32 for the pair) and a bias (64),
  the pre-activation of pair (a, b) at output o under a weight matrix X is

      (sum_k H(a,k) X(k,o) + sum_k H(b,k) X(64+k,o) + sum_k E(a,b,k) X(128+k,o)) * A(a,b) + bias(o),

  the gate of two pre-activations x, y is max(x, 0) * logistic(y), and the layer's result at (a, o) is the sum over
  all b of the gate of the W- and the Wa-pre-activation of (a, b) at o.

  The same pre-activation is stated on a 128 x 128 tile of pairs (a block of 128 first nodes, a block of 128 second
  nodes, with the three row bands of the weight matrix given as separate arrays), which is what one step of a tiled
  evaluation sees.
-/
import Idealize.ShloMosaic.PureOps.Ideal
import Idealize.ShloMosaic.Lib.ValueIdx

noncomputable section

open scoped BigOperators

namespace Cert.Gnn

open Idealize.ShloMosaic Idealize.ShloMosaic.ValueIdx

/-- Row 64 + k of a 160-row matrix. -/
abbrev row2 (k : Fin 64) : Fin 160 := ⟨64 + k.val, by omega⟩
/-- Row 128 + k of a 160-row matrix. -/
abbrev row3 (k : Fin 32) : Fin 160 := ⟨128 + k.val, by omega⟩
/-- Row k of a 160-row matrix, k below 64. -/
abbrev row1 (k : Fin 64) : Fin 160 := ⟨k.val, by omega⟩

/-- The gate: the positive part of x times the logistic of y. -/
def gate (x y : EReal) : EReal := max x 0 * Ideal.logistic y

/-- The pre-activation of pair (a, b) at output o under the weight matrix X. -/
def pre (H : (⟨2, ![1024, 64]⟩ : Shape).Idx → EReal) (A : (⟨2, ![1024, 1024]⟩ : Shape).Idx → EReal)
    (E : (⟨3, ![1024, 1024, 32]⟩ : Shape).Idx → EReal) (X : (⟨2, ![160, 64]⟩ : Shape).Idx → EReal)
    (bias : (⟨1, ![64]⟩ : Shape).Idx → EReal) (a b : Fin 1024) (o : Fin 64) : EReal :=
  ((∑ k : Fin 64, H (ix2 a k) * X (ix2 (row1 k) o)) + (∑ k : Fin 64, H (ix2 b k) * X (ix2 (row2 k) o))
      + (∑ k : Fin 32, E (ix3 a b k) * X (ix2 (row3 k) o))) * A (ix2 a b) + bias (ix1 o)

/-- The layer: at (a, o), the sum over every second node b of the gate of the two pre-activations of (a, b). -/
def layer (H : (⟨2, ![1024, 64]⟩ : Shape).Idx → EReal) (A : (⟨2, ![1024, 1024]⟩ : Shape).Idx → EReal)
    (E : (⟨3, ![1024, 1024, 32]⟩ : Shape).Idx → EReal) (W Wa : (⟨2, ![160, 64]⟩ : Shape).Idx → EReal)
    (bias : (⟨1, ![64]⟩ : Shape).Idx → EReal) : (⟨2, ![1024, 64]⟩ : Shape).Idx → EReal :=
  fun i => ∑ b : Fin 1024, gate (pre H A E W bias (i 0) b (i 1)) (pre H A E Wa bias (i 0) b (i 1))

/-- The pre-activation on a tile: first-node block hr, second-node block hc (128 x 64 each), pair block e
    (128 x 128 x 32), mask block am (128 x 128), and the three row bands x1, x2 (64 x 64), x3 (32 x 64) of a weight
    matrix, at local pair (r, b) and output o. -/
def preTile (hr hc : (⟨2, ![128, 64]⟩ : Shape).Idx → EReal) (e : (⟨3, ![128, 128, 32]⟩ : Shape).Idx → EReal)
    (am : (⟨2, ![128, 128]⟩ : Shape).Idx → EReal) (x1 x2 : (⟨2, ![64, 64]⟩ : Shape).Idx → EReal)
    (x3 : (⟨2, ![32, 64]⟩ : Shape).Idx → EReal) (bias : (⟨1, ![64]⟩ : Shape).Idx → EReal)
    (r b : Fin 128) (o : Fin 64) : EReal :=
  ((∑ k : Fin 64, hr (ix2 r k) * x1 (ix2 k o)) + (∑ k : Fin 64, hc (ix2 b k) * x2 (ix2 k o))
      + (∑ k : Fin 32, e (ix3 r b k) * x3 (ix2 k o))) * am (ix2 r b) + bias (ix1 o)

/-- One step of the tiled evaluation: what is added to the running sum at local (r, o) by a tile of pairs. -/
def tileSum (hr hc : (⟨2, ![128, 64]⟩ : Shape).Idx → EReal) (e : (⟨3, ![128, 128, 32]⟩ : Shape).Idx → EReal)
    (am : (⟨2, ![128, 128]⟩ : Shape).Idx → EReal) (w1 w2 wa1 wa2 : (⟨2, ![64, 64]⟩ : Shape).Idx → EReal)
    (w3 wa3 : (⟨2, ![32, 64]⟩ : Shape).Idx → EReal) (bias : (⟨1, ![64]⟩ : Shape).Idx → EReal)
    (r : Fin 128) (o : Fin 64) : EReal :=
  ∑ b : Fin 128, gate (preTile hr hc e am w1 w2 w3 bias r b o) (preTile hr hc e am wa1 wa2 wa3 bias r b o)

end Cert.Gnn

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.TileDot.lean ====
/-
  The six matrix products of one step of the tiled evaluation, read at a row and a column over the extended reals.

  Every product of the step contracts the left operand's second axis with the right operand's first and batches
  nothing. The four node products take a 128 x 64 block of node features and a 64 x 64 band of a weight matrix; the
  two pair products take the 16384 x 32 array of the tile's pair features, one row per pair, and a 32 x 64 band.
  Each is rounded to a narrower format on the way in, which changes nothing over the extended reals, and accumulates
  into zeros, so each entry is the plain finite sum of products.
-/
import proofs.«126757_j3418793968215_1_alg».proof.Proof.Spec
import proofs.«126757_j3418793968215_1_alg».proof.Proof.LibDotIx2
import proofs.«126757_j3418793968215_1_alg».proof.Proof.Gen.KernelIdeal.Skeleton
import Idealize.ShloMosaic.Lib.Pipeline.Value

noncomputable section

open scoped BigOperators

namespace Cert.Gnn.Tile

open Idealize.ShloMosaic Idealize.ShloMosaic.ValueIdx Cert.KernelIdeal Cert.KernelIdeal.Gen

/-- The node products' dimension numbers are those of a plain 128 x 64 by 64 x 64 product. -/
theorem plainNode : PlainDot dot_S128x64_S64x64_S128x64_1_0_0_1_n_n where
  rank := rfl
  size := rfl
  l0 := fun j q => by
    unfold DotDims.lhsIdx
    rw [dif_neg (show ¬(0 : Fin S128x64.rank) ∈ dot_S128x64_S64x64_S128x64_1_0_0_1_n_n.lhsBatch by decide),
      dif_pos (show (0 : Fin S128x64.rank) ∈ dot_S128x64_S64x64_S128x64_1_0_0_1_n_n.lhsNonContracting by decide)]
    rfl
  l1 := fun j q => dot_S128x64_S64x64_S128x64_1_0_0_1_n_n.lhsIdx_val_of_single rfl j q
  r0 := fun j q => dot_S128x64_S64x64_S128x64_1_0_0_1_n_n.rhsIdx_val_of_single rfl j q
  r1 := fun j q => by
    unfold DotDims.rhsIdx
    rw [dif_neg (show ¬(1 : Fin S64x64.rank) ∈ dot_S128x64_S64x64_S128x64_1_0_0_1_n_n.rhsBatch by decide),
      dif_pos (show (1 : Fin S64x64.rank) ∈ dot_S128x64_S64x64_S128x64_1_0_0_1_n_n.rhsNonContracting by decide)]
    rfl

/-- The pair products' dimension numbers are those of a plain 16384 x 32 by 32 x 64 product. -/
theorem plainPair : PlainDot dot_S16384x32_S32x64_S16384x64_1_0_0_1_n_n where
  rank := rfl
  size := rfl
  l0 := fun j q => by
    unfold DotDims.lhsIdx
    rw [dif_neg (show ¬(0 : Fin S16384x32.rank) ∈ dot_S16384x32_S32x64_S16384x64_1_0_0_1_n_n.lhsBatch by decide),
      dif_pos (show (0 : Fin S16384x32.rank) ∈ dot_S16384x32_S32x64_S16384x64_1_0_0_1_n_n.lhsNonContracting by decide)]
    rfl
  l1 := fun j q => dot_S16384x32_S32x64_S16384x64_1_0_0_1_n_n.lhsIdx_val_of_single rfl j q
  r0 := fun j q => dot_S16384x32_S32x64_S16384x64_1_0_0_1_n_n.rhsIdx_val_of_single rfl j q
  r1 := fun j q => by
    unfold DotDims.rhsIdx
    rw [dif_neg (show ¬(1 : Fin S32x64.rank) ∈ dot_S16384x32_S32x64_S16384x64_1_0_0_1_n_n.rhsBatch by decide),
      dif_pos (show (1 : Fin S32x64.rank) ∈ dot_S16384x32_S32x64_S16384x64_1_0_0_1_n_n.rhsNonContracting by decide)]
    rfl

/-- A node product of the block h with the band x, at (r, o): the sum over the 64 features. -/
theorem nodeDot_apply (h : Vec Ideal S128x64 .f32) (x : Vec Ideal S64x64 .f32) (r : Fin 128) (o : Fin 64) :
    FloatOps.matmul dot_S128x64_S64x64_S128x64_1_0_0_1_n_n none (truncf .bf16 h bitsLt_bf16_f32 : FVec Ideal S128x64 .bf16)
        (truncf .bf16 (shapeCast S64x64 x shapeCasts_S64x64_S64x64) bitsLt_bf16_f32 : FVec Ideal S64x64 .bf16)
        (constant S128x64 .f32 0x00000000#32) (ix2 r o)
      = ∑ k : Fin 64, h (ix2 r k) * x (ix2 k o) := by
  refine (matmul_zero_ix2_any plainNode none _ _ r o).trans ?_
  rw [shapeCast_self]
  rfl

/-- The first node's product with the first band of W. -/
theorem pay7_apply (hr : Vec Ideal S128x64 .f32) (w1 : Vec Ideal S64x64 .f32) (r : Fin 128) (o : Fin 64) :
    k0_pay7 (F := Ideal) hr w1 (ix2 r o) = ∑ k : Fin 64, hr (ix2 r k) * w1 (ix2 k o) :=
  nodeDot_apply hr w1 r o

/-- The second node's product with the second band of W. -/
theorem pay8_apply (hc : Vec Ideal S128x64 .f32) (w2 : Vec Ideal S64x64 .f32) (r : Fin 128) (o : Fin 64) :
    k0_pay8 (F := Ideal) hc w2 (ix2 r o) = ∑ k : Fin 64, hc (ix2 r k) * w2 (ix2 k o) :=
  nodeDot_apply hc w2 r o

/-- The first node's product with the first band of Wa. -/
theorem pay9_apply (hr : Vec Ideal S128x64 .f32) (wa1 : Vec Ideal S64x64 .f32) (r : Fin 128) (o : Fin 64) :
    k0_pay9 (F := Ideal) hr wa1 (ix2 r o) = ∑ k : Fin 64, hr (ix2 r k) * wa1 (ix2 k o) :=
  nodeDot_apply hr wa1 r o

/-- The second node's product with the second band of Wa. -/
theorem pay10_apply (hc : Vec Ideal S128x64 .f32) (wa2 : Vec Ideal S64x64 .f32) (r : Fin 128) (o : Fin 64) :
    k0_pay10 (F := Ideal) hc wa2 (ix2 r o) = ∑ k : Fin 64, hc (ix2 r k) * wa2 (ix2 k o) :=
  nodeDot_apply hc wa2 r o

end Cert.Gnn.Tile

end
-- ==== Proof.TileLayout.lean ====
/-
  The rearrangements of one step of the tiled evaluation, read at explicit coordinates.

  A tile holds 128 first nodes r, 128 second nodes b and 64 outputs o. The step brings every operand to the
  128 x 128 x 64 array of (r, b, o): the pair features, 128 x 128 x 32, are laid out as one row per pair, row
  128 r + b, and a product with 16384 rows is folded back to (r, b, o); a per-first-node array, 128 x 64, is repeated
  along b and a per-second-node one along r; the mask, 128 x 128, is repeated along o and the bias, 64, along r and b.
  Last, the sum over the middle axis at (r, o) is the sum over b of the entries at (r, b, o).
-/
import Idealize.ShloMosaic.Lib.Pipeline.Value
import Idealize.ShloMosaic.Lib.ValueIdx
import Idealize.ShloMosaic.PureOps.Ideal.Laws

noncomputable section

open scoped BigOperators

namespace Cert.Gnn.Tile

open Idealize.ShloMosaic Idealize.ShloMosaic.ValueIdx

variable {α : Type}

/-- The row of pair (r, b) when the tile's pairs are laid out one per row. -/
abbrev pairRow (r b : Fin 128) : Fin 16384 := ⟨128 * r.val + b.val, by have := r.isLt; have := b.isLt; omega⟩

/-- The pair features laid out one row per pair: row 128 r + b at k is the entry at (r, b, k). -/
theorem flatten_apply (x : (⟨3, ![128, 128, 32]⟩ : Shape).Idx → α)
    (h : (⟨3, ![128, 128, 32]⟩ : Shape).ShapeCasts ⟨2, ![16384, 32]⟩) (r b : Fin 128) (k : Fin 32) :
    shapeCast ⟨2, ![16384, 32]⟩ x h (ix2 (pairRow r b) k) = x (ix3 r b k) :=
  shapeCast_apply x h _ _ (by
    rw [Shape.rowMajor_val_three, Shape.rowMajor_val_two]
    show (r.val * 128 + b.val) * 32 + k.val = (128 * r.val + b.val) * 32 + k.val
    omega)

/-- An array with one row per pair folded back: the entry at (r, b, o) is row 128 r + b at o. -/
theorem unflatten_apply (x : (⟨2, ![16384, 64]⟩ : Shape).Idx → α)
    (h : (⟨2, ![16384, 64]⟩ : Shape).ShapeCasts ⟨3, ![128, 128, 64]⟩) (r b : Fin 128) (o : Fin 64) :
    shapeCast ⟨3, ![128, 128, 64]⟩ x h (ix3 r b o) = x (ix2 (pairRow r b) o) :=
  shapeCast_apply x h _ _ (by
    rw [Shape.rowMajor_val_three, Shape.rowMajor_val_two]
    show (128 * r.val + b.val) * 64 + o.val = (r.val * 128 + b.val) * 64 + o.val
    omega)

/-- A per-first-node array repeated along the second node: at (r, b, o) it reads (r, o). -/
theorem alongSecond_apply (x : (⟨2, ![128, 64]⟩ : Shape).Idx → α)
    (h : (⟨2, ![128, 64]⟩ : Shape).ShapeCasts ⟨3, ![128, 1, 64]⟩)
    (h' : (⟨3, ![128, 1, 64]⟩ : Shape).Broadcasts ⟨3, ![128, 128, 64]⟩) (r b : Fin 128) (o : Fin 64) :
    broadcastTo ⟨3, ![128, 128, 64]⟩ (shapeCast ⟨3, ![128, 1, 64]⟩ x h) h' (ix3 r b o) = x (ix2 r o) := by
  refine (broadcastTo_apply _ h' (ix3 r b o) (ix3 r (0 : Fin 1) o) fun a => ?_).trans ?_
  · match a with
    | ⟨0, _⟩ => show r.val = if (128 : Nat) = 1 then 0 else r.val; rw [if_neg (by decide)]
    | ⟨1, _⟩ => show 0 = if (1 : Nat) = 1 then 0 else b.val; rw [if_pos rfl]
    | ⟨2, _⟩ => show o.val = if (64 : Nat) = 1 then 0 else o.val; rw [if_neg (by decide)]
  · exact shapeCast_apply x h _ _ (by
      rw [Shape.rowMajor_val_three, Shape.rowMajor_val_two]
      show r.val * 64 + o.val = (r.val * 1 + 0) * 64 + o.val
      omega)

/-- A per-second-node array repeated along the first node: at (r, b, o) it reads (b, o). -/
theorem alongFirst_apply (x : (⟨2, ![128, 64]⟩ : Shape).Idx → α)
    (h : (⟨2, ![128, 64]⟩ : Shape).ShapeCasts ⟨3, ![1, 128, 64]⟩)
    (h' : (⟨3, ![1, 128, 64]⟩ : Shape).Broadcasts ⟨3, ![128, 128, 64]⟩) (r b : Fin 128) (o : Fin 64) :
    broadcastTo ⟨3, ![128, 128, 64]⟩ (shapeCast ⟨3, ![1, 128, 64]⟩ x h) h' (ix3 r b o) = x (ix2 b o) := by
  refine (broadcastTo_apply _ h' (ix3 r b o) (ix3 (0 : Fin 1) b o) fun a => ?_).trans ?_
  · match a with
    | ⟨0, _⟩ => show 0 = if (1 : Nat) = 1 then 0 else r.val; rw [if_pos rfl]
    | ⟨1, _⟩ => show b.val = if (128 : Nat) = 1 then 0 else b.val; rw [if_neg (by decide)]
    | ⟨2, _⟩ => show o.val = if (64 : Nat) = 1 then 0 else o.val; rw [if_neg (by decide)]
  · exact shapeCast_apply x h _ _ (by
      rw [Shape.rowMajor_val_three, Shape.rowMajor_val_two]
      show b.val * 64 + o.val = (0 * 128 + b.val) * 64 + o.val
      omega)

/-- The mask repeated along the outputs: at (r, b, o) it reads (r, b). -/
theorem alongOutput_apply (x : (⟨2, ![128, 128]⟩ : Shape).Idx → α)
    (h : (⟨2, ![128, 128]⟩ : Shape).ShapeCasts ⟨3, ![128, 128, 1]⟩)
    (h' : (⟨3, ![128, 128, 1]⟩ : Shape).Broadcasts ⟨3, ![128, 128, 64]⟩) (r b : Fin 128) (o : Fin 64) :
    broadcastTo ⟨3, ![128, 128, 64]⟩ (shapeCast ⟨3, ![128, 128, 1]⟩ x h) h' (ix3 r b o) = x (ix2 r b) := by
  refine (broadcastTo_apply _ h' (ix3 r b o) (ix3 r b (0 : Fin 1)) fun a => ?_).trans ?_
  · match a with
    | ⟨0, _⟩ => show r.val = if (128 : Nat) = 1 then 0 else r.val; rw [if_neg (by decide)]
    | ⟨1, _⟩ => show b.val = if (128 : Nat) = 1 then 0 else b.val; rw [if_neg (by decide)]
    | ⟨2, _⟩ => show 0 = if (1 : Nat) = 1 then 0 else o.val; rw [if_pos rfl]
  · exact shapeCast_apply x h _ _ (by
      rw [Shape.rowMajor_val_three, Shape.rowMajor_val_two]
      show r.val * 128 + b.val = (r.val * 128 + b.val) * 1 + 0
      omega)

/-- The bias repeated along both nodes: at (r, b, o) it reads o. -/
theorem alongNodes_apply (x : (⟨1, ![64]⟩ : Shape).Idx → α)
    (h : (⟨1, ![64]⟩ : Shape).ShapeCasts ⟨3, ![1, 1, 64]⟩)
    (h' : (⟨3, ![1, 1, 64]⟩ : Shape).Broadcasts ⟨3, ![128, 128, 64]⟩) (r b : Fin 128) (o : Fin 64) :
    broadcastTo ⟨3, ![128, 128, 64]⟩ (shapeCast ⟨3, ![1, 1, 64]⟩ x h) h' (ix3 r b o) = x (ix1 o) := by
  refine (broadcastTo_apply _ h' (ix3 r b o) (ix3 (0 : Fin 1) (0 : Fin 1) o) fun a => ?_).trans ?_
  · match a with
    | ⟨0, _⟩ => show 0 = if (1 : Nat) = 1 then 0 else r.val; rw [if_pos rfl]
    | ⟨1, _⟩ => show 0 = if (1 : Nat) = 1 then 0 else b.val; rw [if_pos rfl]
    | ⟨2, _⟩ => show o.val = if (64 : Nat) = 1 then 0 else o.val; rw [if_neg (by decide)]
  · exact shapeCast_apply x h _ _ (by
      rw [Shape.rowMajor_val_three, Shape.rowMajor_val_one]
      show o.val = (0 * 1 + 0) * 64 + o.val
      omega)

/-- The sum over the second nodes: at (r, o), the sum over b of the entries at (r, b, o). -/
theorem sumSecond_apply (v : FVec Ideal (⟨3, ![128, 128, 64]⟩ : Shape) .f32)
    (h : (⟨3, ![128, 128, 64]⟩ : Shape).Reduces [1] ⟨2, ![128, 64]⟩) (hφ : FKind.Formats .f32)
    (hacc : (0x00000000#32 : BitVec 32) = FKind.add.neutral .f32 hφ) (r : Fin 128) (o : Fin 64) :
    multiReduction (F := Ideal) .add [1] ⟨2, ![128, 64]⟩ v 0x00000000#32 h hφ hacc (ix2 r o)
      = ∑ b : Fin 128, v (ix3 r b o) := by
  refine (Ideal.multiReduction_add_single v 0x00000000#32 h hφ hacc (ix2 r o)).trans ?_
  refine Finset.sum_congr rfl fun b _ => congrArg v ?_
  funext c
  refine Fin.ext ?_
  match c with
  | ⟨0, _⟩ => rfl
  | ⟨1, _⟩ => rfl
  | ⟨2, _⟩ => rfl

end Cert.Gnn.Tile

end
-- ==== Proof.TileValue.lean ====
/-
  One step of the tiled evaluation, read at a first node r and an output o.

  The step adds to the running sum at (r, o) the sum over the tile's second nodes b of the gate of the two
  pre-activations of pair (r, b) at o. Each pre-activation is assembled on the 128 x 128 x 64 array of (r, b, o):
  the first node's product repeated along b, plus the second node's product repeated along r, plus the pair
  product folded back from one row per pair, all times the mask repeated along o, plus the bias. The gate is the
  positive part of the W-pre-activation times the logistic of the Wa-pre-activation, and the sum over b closes the step.
  The first step of a row of tiles starts from the zero fill.
-/
import proofs.«126757_j3418793968215_1_alg».proof.Proof.Spec
import proofs.«126757_j3418793968215_1_alg».proof.Proof.LibDotIx2
import proofs.«126757_j3418793968215_1_alg».proof.Proof.TileDot
import proofs.«126757_j3418793968215_1_alg».proof.Proof.TileLayout
import proofs.«126757_j3418793968215_1_alg».proof.Proof.Gen.KernelIdeal.Skeleton
import Idealize.ShloMosaic.Lib.Pipeline.Value

noncomputable section

open scoped BigOperators

namespace Cert.Gnn.Tile

open Idealize.ShloMosaic Idealize.ShloMosaic.ValueIdx Cert.KernelIdeal Cert.KernelIdeal.Gen

/-- The zero fill is zero everywhere. -/
theorem pay2_apply (r : Fin 128) (o : Fin 64) : k0_pay2 (F := Ideal) (ix2 r o) = 0 := by
  unfold k0_pay2
  rw [shapeCast_self]
  exact Ideal.ofBits_zero_f32

/-- The third band of W, prepared for the pair product, is the band itself. -/
theorem pay5_apply (x : Vec Ideal S32x64 .f32) (k : Fin 32) (o : Fin 64) :
    k0_pay5 (F := Ideal) x (ix2 k o) = x (ix2 k o) := by
  unfold k0_pay5
  rw [shapeCast_self]
  rfl

/-- The third band of Wa, prepared for the pair product, is the band itself. -/
theorem pay6_apply (x : Vec Ideal S32x64 .f32) (k : Fin 32) (o : Fin 64) :
    k0_pay6 (F := Ideal) x (ix2 k o) = x (ix2 k o) := by
  unfold k0_pay6
  rw [shapeCast_self]
  rfl

/-- The pair features prepared for the pair product: row 128 r + b at k is the feature at (r, b, k). -/
theorem pay11_apply (e : Vec Ideal S128x128x32 .f32) (r b : Fin 128) (k : Fin 32) :
    k0_pay11 (F := Ideal) e (ix2 (pairRow r b) k) = e (ix3 r b k) := by
  unfold k0_pay11
  exact flatten_apply (truncf .bf16 e bitsLt_bf16_f32 : FVec Ideal S128x128x32 .bf16) _ r b k

/-- A pair product folded back to (r, b, o): the sum over the 32 pair features. -/
theorem pairDot_apply (e : Vec Ideal S128x128x32 .f32) (y : FVec Ideal S32x64 .bf16) (r b : Fin 128) (o : Fin 64) :
    shapeCast S128x128x64
        (FloatOps.matmul dot_S16384x32_S32x64_S16384x64_1_0_0_1_n_n none (k0_pay11 (F := Ideal) e) y
          (constant S16384x64 .f32 0x00000000#32))
        shapeCasts_S16384x64_S128x128x64 (ix3 r b o)
      = ∑ k : Fin 32, e (ix3 r b k) * y (ix2 k o) := by
  refine (unflatten_apply _ _ r b o).trans ?_
  refine (matmul_zero_ix2_any plainPair none _ _ (pairRow r b) o).trans ?_
  refine Finset.sum_congr rfl fun k _ => ?_
  rw [pay11_apply]

/-- A pre-activation assembled on (r, b, o) from the two node products n1, n2, a pair product p already folded back,
    the mask and the bias. -/
theorem assemble_apply (n1 n2 : FVec Ideal S128x64 .f32) (p : FVec Ideal S128x128x64 .f32) (am : Vec Ideal S128x128 .f32)
    (bias : Vec Ideal S64 .f32) (r b : Fin 128) (o : Fin 64) :
    addf (mulf
        (addf (addf (broadcastTo S128x128x64 (shapeCast S128x1x64 n1 shapeCasts_S128x64_S128x1x64) broadcasts_S128x1x64_S128x128x64)
                    (broadcastTo S128x128x64 (shapeCast S1x128x64 n2 shapeCasts_S128x64_S1x128x64) broadcasts_S1x128x64_S128x128x64)) p)
        (broadcastTo S128x128x64 (shapeCast S128x128x1 am shapeCasts_S128x128_S128x128x1) broadcasts_S128x128x1_S128x128x64))
      (broadcastTo S128x128x64 (shapeCast S1x1x64 bias shapeCasts_S64_S1x1x64) broadcasts_S1x1x64_S128x128x64) (ix3 r b o)
      = (n1 (ix2 r o) + n2 (ix2 b o) + p (ix3 r b o)) * am (ix2 r b) + bias (ix1 o) := by
  rw [addf_apply, mulf_apply, addf_apply, addf_apply, alongSecond_apply, alongFirst_apply, alongOutput_apply, alongNodes_apply]

/-- The positive part of x times the logistic of y, entry by entry, is the gate. -/
theorem gate_apply (x y : FVec Ideal S128x128x64 .f32) (i : S128x128x64.Idx) :
    mulf (maximumf x (broadcast S128x128x64 (Scalar.ofBits (F := Ideal) .f32 0x00000000#32))) (logistic y) i = gate (x i) (y i) := by
  show max (x i) (Ideal.ofBits .f32 0x00000000#32) * Ideal.logistic (y i) = _
  rw [Ideal.ofBits_zero_f32]
  rfl

/-- The pre-activation of pair (r, b) at o under the bands x1, x2, x3, from the step's three products. -/
theorem pre_apply (hr hc : Vec Ideal S128x64 .f32) (e : Vec Ideal S128x128x32 .f32) (am : Vec Ideal S128x128 .f32)
    (x1 x2 : Vec Ideal S64x64 .f32) (x3 : Vec Ideal S32x64 .f32) (bias : Vec Ideal S64 .f32)
    (n1 n2 : FVec Ideal S128x64 .f32) (y : FVec Ideal S32x64 .bf16)
    (h1 : ∀ r o, n1 (ix2 r o) = ∑ k : Fin 64, hr (ix2 r k) * x1 (ix2 k o))
    (h2 : ∀ b o, n2 (ix2 b o) = ∑ k : Fin 64, hc (ix2 b k) * x2 (ix2 k o))
    (h3 : ∀ k o, y (ix2 k o) = x3 (ix2 k o)) (r b : Fin 128) (o : Fin 64) :
    addf (mulf
        (addf (addf (broadcastTo S128x128x64 (shapeCast S128x1x64 n1 shapeCasts_S128x64_S128x1x64) broadcasts_S128x1x64_S128x128x64)
                    (broadcastTo S128x128x64 (shapeCast S1x128x64 n2 shapeCasts_S128x64_S1x128x64) broadcasts_S1x128x64_S128x128x64))
          (shapeCast S128x128x64
            (FloatOps.matmul dot_S16384x32_S32x64_S16384x64_1_0_0_1_n_n none (k0_pay11 (F := Ideal) e) y
              (constant S16384x64 .f32 0x00000000#32))
            shapeCasts_S16384x64_S128x128x64))
        (broadcastTo S128x128x64 (shapeCast S128x128x1 am shapeCasts_S128x128_S128x128x1) broadcasts_S128x128x1_S128x128x64))
      (broadcastTo S128x128x64 (shapeCast S1x1x64 bias shapeCasts_S64_S1x1x64) broadcasts_S1x1x64_S128x128x64) (ix3 r b o)
      = preTile hr hc e am x1 x2 x3 bias r b o := by
  refine (assemble_apply n1 n2 _ am bias r b o).trans ?_
  rw [pairDot_apply, h1, h2]
  unfold preTile
  simp only [h3]

/-- One step of the tiled evaluation at (r, o): the running sum plus the tile's contribution. -/
theorem pay1_apply (w3 wa3 : Vec Ideal S32x64 .f32) (hr hc : Vec Ideal S128x64 .f32) (w1 w2 wa1 wa2 : Vec Ideal S64x64 .f32)
    (e : Vec Ideal S128x128x32 .f32) (am : Vec Ideal S128x128 .f32) (bias : Vec Ideal S64 .f32) (acc : Vec Ideal S128x64 .f32)
    (r : Fin 128) (o : Fin 64) :
    k0_pay1 (F := Ideal) (k0_pay5 w3) (k0_pay6 wa3) (k0_pay7 hr w1) (k0_pay8 hc w2) (k0_pay9 hr wa1) (k0_pay10 hc wa2)
        (k0_pay11 e) am bias acc (ix2 r o)
      = acc (ix2 r o) + tileSum hr hc e am w1 w2 wa1 wa2 w3 wa3 bias r o := by
  unfold k0_pay1
  refine (congrFun (shapeCast_self _ _) (ix2 r o)).trans ?_
  refine (addf_apply _ _ _).trans ?_
  refine congrArg (acc (ix2 r o) + ·) ?_
  refine (sumSecond_apply _ _ _ _ r o).trans ?_
  unfold tileSum
  refine Finset.sum_congr rfl fun b _ => ?_
  refine (gate_apply _ _ _).trans ?_
  refine congrArg₂ gate ?_ ?_
  · exact pre_apply hr hc e am w1 w2 w3 bias _ _ _ (pay7_apply hr w1) (pay8_apply hc w2) (pay5_apply w3) r b o
  · exact pre_apply hr hc e am wa1 wa2 wa3 bias _ _ _ (pay9_apply hr wa1) (pay10_apply hc wa2) (pay6_apply wa3) r b o

end Cert.Gnn.Tile

end
-- ==== Proof.KernelIdealFrame.Accum.lean ====
/-
  The running sum, in closed form, over the extended reals.

  At grid point t = 8 i + j the body adds to the scratch, at local (r, o), the tile sum of the point's blocks: the sum
  over the 128 second nodes of the tile of the gate of the two pre-activations. The scratch starts from zero when
  j = 0. So after point 8 i + j it holds the sum of the tile sums of the points 8 i, ..., 8 i + j; and the output
  block stored at j = 7 is the scratch there.
-/
import proofs.«126757_j3418793968215_1_alg».proof.Proof.KernelIdealFrame.Run
import proofs.«126757_j3418793968215_1_alg».proof.Proof.KernelIdealFrame.Pieces
import proofs.«126757_j3418793968215_1_alg».proof.Proof.TileValue

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- What point t adds at local (r, o): the tile sum of its blocks. -/
def stepSum (c : Dev nD) (t : Fin cfg0.N) (r : Fin 128) (o : Fin 64) : EReal :=
  Cert.Gnn.tileSum (iblk m c 0 t : Vec Ideal S128x64 .f32) (iblk m c 1 t : Vec Ideal S128x64 .f32) (iblk m c 2 t : Vec Ideal S128x128x32 .f32) (iblk m c 3 t : Vec Ideal S128x128 .f32) (iblk m c 4 t : Vec Ideal S64x64 .f32) (iblk m c 5 t : Vec Ideal S64x64 .f32) (iblk m c 7 t : Vec Ideal S64x64 .f32) (iblk m c 8 t : Vec Ideal S64x64 .f32) (iblk m c 6 t : Vec Ideal S32x64 .f32) (iblk m c 9 t : Vec Ideal S32x64 .f32) (iblk m c 10 t : Vec Ideal S64 .f32) r o

/-- The scratch after point t, at local (r, o). -/
def accAt (c : Dev nD) (t : Fin cfg0.N) (r : Fin 128) (o : Fin 64) : EReal :=
  (outsAt0 m c t.val t.isLt).2 (ix2 r o)

/-- The point before t. -/
abbrev prevPt (t : Fin cfg0.N) : Fin cfg0.N := ⟨t.val - 1, Nat.lt_of_le_of_lt (Nat.sub_le _ _) t.isLt⟩

/-- At a point with second coordinate 0 the scratch restarts: it holds the point's tile sum. -/
theorem accAt_first (c : Dev nD) (t : Fin cfg0.N) (h0 : t.val % 8 = 0) (r : Fin 128) (o : Fin 64) :
    accAt m c t r o = stepSum m c t r o := by
  have h1 : ¬t.val % 8 = 7 := by omega
  unfold accAt
  rw [outsAt0_A m c t h0 h1]
  dsimp only
  rw [sout0_A_0_eq]
  refine (Cert.Gnn.Tile.pay1_apply (iblk m c 6 t : Vec Ideal S32x64 .f32) (iblk m c 9 t : Vec Ideal S32x64 .f32) (iblk m c 0 t : Vec Ideal S128x64 .f32) (iblk m c 1 t : Vec Ideal S128x64 .f32) (iblk m c 4 t : Vec Ideal S64x64 .f32) (iblk m c 5 t : Vec Ideal S64x64 .f32) (iblk m c 7 t : Vec Ideal S64x64 .f32) (iblk m c 8 t : Vec Ideal S64x64 .f32) (iblk m c 2 t : Vec Ideal S128x128x32 .f32) (iblk m c 3 t : Vec Ideal S128x128 .f32) (iblk m c 10 t : Vec Ideal S64 .f32) (k0_pay2 (F := Ideal)) r o).trans ?_
  rw [Cert.Gnn.Tile.pay2_apply, zero_add]
  rfl

/-- At any other point it adds the point's tile sum to what the point before left. -/
theorem accAt_next (c : Dev nD) (t : Fin cfg0.N) (h0 : ¬t.val % 8 = 0) (r : Fin 128) (o : Fin 64) :
    accAt m c t r o = accAt m c (prevPt t) r o + stepSum m c t r o := by
  unfold accAt
  by_cases h1 : t.val % 8 = 7
  · rw [outsAt0_C m c t h0 h1]
    dsimp only
    rw [sout0_C_0_eq]
    exact Cert.Gnn.Tile.pay1_apply (iblk m c 6 t : Vec Ideal S32x64 .f32) (iblk m c 9 t : Vec Ideal S32x64 .f32) (iblk m c 0 t : Vec Ideal S128x64 .f32) (iblk m c 1 t : Vec Ideal S128x64 .f32) (iblk m c 4 t : Vec Ideal S64x64 .f32) (iblk m c 5 t : Vec Ideal S64x64 .f32) (iblk m c 7 t : Vec Ideal S64x64 .f32) (iblk m c 8 t : Vec Ideal S64x64 .f32) (iblk m c 2 t : Vec Ideal S128x128x32 .f32) (iblk m c 3 t : Vec Ideal S128x128 .f32) (iblk m c 10 t : Vec Ideal S64 .f32) _ r o
  · rw [outsAt0_B m c t h0 h1]
    dsimp only
    rw [sout0_B_0_eq]
    exact Cert.Gnn.Tile.pay1_apply (iblk m c 6 t : Vec Ideal S32x64 .f32) (iblk m c 9 t : Vec Ideal S32x64 .f32) (iblk m c 0 t : Vec Ideal S128x64 .f32) (iblk m c 1 t : Vec Ideal S128x64 .f32) (iblk m c 4 t : Vec Ideal S64x64 .f32) (iblk m c 5 t : Vec Ideal S64x64 .f32) (iblk m c 7 t : Vec Ideal S64x64 .f32) (iblk m c 8 t : Vec Ideal S64x64 .f32) (iblk m c 2 t : Vec Ideal S128x128x32 .f32) (iblk m c 3 t : Vec Ideal S128x128 .f32) (iblk m c 10 t : Vec Ideal S64 .f32) _ r o

/-- The output block stored at a point with second coordinate 7 is the scratch there. -/
theorem out_eq_acc (c : Dev nD) (t : Fin cfg0.N) (h1 : t.val % 8 = 7) (r : Fin 128) (o : Fin 64) :
    (outsAt0 m c t.val t.isLt).1 (ix2 r o) = accAt m c t r o := by
  have h0 : ¬t.val % 8 = 0 := by omega
  unfold accAt
  rw [outsAt0_C m c t h0 h1]
  dsimp only
  rw [out0_C_11_eq, sout0_C_0_eq]

/-- Point 8 i + j of the grid. -/
abbrev pt (i j : Fin 8) : Fin cfg0.N := ⟨8 * i.val + j.val, by rw [show cfg0.N = 64 from N_0]; omega⟩

/-- After point 8 i + j the scratch holds the tile sums of the points 8 i, ..., 8 i + j. -/
theorem accAt_eq_sum (c : Dev nD) (i : Fin 8) (r : Fin 128) (o : Fin 64) :
    ∀ (j : ℕ) (hj : j < 8), accAt m c (pt i ⟨j, hj⟩) r o
      = ∑ j' ∈ Finset.range (j + 1), if hj' : j' < 8 then stepSum m c (pt i ⟨j', hj'⟩) r o else 0
  | 0, hj => by
    rw [accAt_first m c (pt i ⟨0, hj⟩) (by show (8 * i.val + 0) % 8 = 0; omega)]
    rw [Finset.sum_range_one, dif_pos hj]
  | j + 1, hj => by
    rw [accAt_next m c (pt i ⟨j + 1, hj⟩) (by show ¬(8 * i.val + (j + 1)) % 8 = 0; omega)]
    rw [Finset.sum_range_succ _ (j + 1), dif_pos hj]
    congr 1
    rw [← accAt_eq_sum c i r o j (by omega)]
    congr 1

/-- After the last point of a row of the grid the scratch holds the sum of the row's eight tile sums. -/
theorem accAt_row (c : Dev nD) (i : Fin 8) (r : Fin 128) (o : Fin 64) :
    accAt m c (pt i 7) r o = ∑ j : Fin 8, stepSum m c (pt i j) r o := by
  rw [show (pt i 7 : Fin cfg0.N) = pt i ⟨7, by omega⟩ from rfl, accAt_eq_sum m c i r o 7 (by omega),
    Finset.sum_range (n := 8) (fun j' => if hj' : j' < 8 then stepSum m c (pt i ⟨j', hj'⟩) r o else 0)]
  exact Finset.sum_congr rfl fun j _ => by rw [dif_pos j.isLt]

end Cert.KernelIdeal.Fr

end
-- ==== Proof.KernelIdealFrame.Blocks.lean ====
/-
  The tiled kernel's windows read at a local coordinate: which entry of which argument array each block entry is.

  The grid point t = 8 i + j (i = t / 8, j = t % 8) sees rows 128 i .. 128 i + 127 of the node features (window 0),
  rows 128 j .. 128 j + 127 of the node features (window 1), the block (i, j) of the pair features (window 2) and of
  the mask (window 3), the three row bands 0..63, 64..127, 128..159 of each of the two weight matrices (windows 4..6
  and 7..9, sliced out before the region is entered), the whole bias (window 10), and writes rows 128 i .. of the
  result (window 11). These are facts about indices only: they hold for any float values.
-/
import proofs.«126757_j3418793968215_1_alg».proof.Proof.KernelIdealFrame.Kit
import proofs.«126757_j3418793968215_1_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## What the region finds in the arrays -/

/-- No slice writes argument 0: the region finds it as the program was given it. -/
theorem Vkept_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No slice writes argument 1: the region finds it as the program was given it. -/
theorem Vkept_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No slice writes argument 2: the region finds it as the program was given it. -/
theorem Vkept_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No slice writes argument 3: the region finds it as the program was given it. -/
theorem Vkept_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No slice writes argument 4: the region finds it as the program was given it. -/
theorem Vkept_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No slice writes argument 5: the region finds it as the program was given it. -/
theorem Vkept_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The first slice: rows 0..63 of the first weight matrix. -/
theorem V_main_v0 (c : Dev nD) :
    (V m c main_v0 : S64x64.Idx → Elt F .f32)
      = extractStridedSlice S64x64 ![0, 0] (m ((c : Thread nD τ).loc main_arg3)) slices_S160x64_S64x64_0_0 := by
  dsimp only [V, V0, hostOps0]; after_results

/-- The second slice: rows 64..127 of the first weight matrix. -/
theorem V_main_v1 (c : Dev nD) :
    (V m c main_v1 : S64x64.Idx → Elt F .f32)
      = extractStridedSlice S64x64 ![64, 0] (m ((c : Thread nD τ).loc main_arg3)) slices_S160x64_S64x64_64_0 := by
  dsimp only [V, V0, hostOps0]; after_results

/-- The third slice: rows 128..159 of the first weight matrix. -/
theorem V_main_v2 (c : Dev nD) :
    (V m c main_v2 : S32x64.Idx → Elt F .f32)
      = extractStridedSlice S32x64 ![128, 0] (m ((c : Thread nD τ).loc main_arg3)) slices_S160x64_S32x64_128_0 := by
  dsimp only [V, V0, hostOps0]; after_results

/-- The fourth slice: rows 0..63 of the second weight matrix. -/
theorem V_main_v3 (c : Dev nD) :
    (V m c main_v3 : S64x64.Idx → Elt F .f32)
      = extractStridedSlice S64x64 ![0, 0] (m ((c : Thread nD τ).loc main_arg4)) slices_S160x64_S64x64_0_0 := by
  dsimp only [V, V0, hostOps0]; after_results

/-- The fifth slice: rows 64..127 of the second weight matrix. -/
theorem V_main_v4 (c : Dev nD) :
    (V m c main_v4 : S64x64.Idx → Elt F .f32)
      = extractStridedSlice S64x64 ![64, 0] (m ((c : Thread nD τ).loc main_arg4)) slices_S160x64_S64x64_64_0 := by
  dsimp only [V, V0, hostOps0]; after_results

/-- The sixth slice: rows 128..159 of the second weight matrix. -/
theorem V_main_v5 (c : Dev nD) :
    (V m c main_v5 : S32x64.Idx → Elt F .f32)
      = extractStridedSlice S32x64 ![128, 0] (m ((c : Thread nD τ).loc main_arg4)) slices_S160x64_S32x64_128_0 := by
  dsimp only [V, V0, hostOps0]; after_results

/-! ## The grid and the index maps -/

/-- The grid has 64 points. -/
theorem lt64 (t : Fin cfg0.N) : t.val < 64 := lt_of_lt_of_eq t.isLt N_0

/-- Row 128 (t / 8) + r of a 1024-row array: local row r of the first-node tile of grid point t. -/
abbrev rowAt (t : Fin cfg0.N) (r : Fin 128) : Fin 1024 := ⟨128 * (t.val / 8) + r.val, by have := lt64 t; omega⟩
/-- Row 128 (t % 8) + b of a 1024-row array: local row b of the second-node tile of grid point t. -/
abbrev colAt (t : Fin cfg0.N) (b : Fin 128) : Fin 1024 := ⟨128 * (t.val % 8) + b.val, by omega⟩

/-- The index maps of the four tiled input windows over the grid: point t has first coordinate t / 8 and second
    t % 8; the feature axes are not tiled. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 3) = t.val / 8 ∧ win0_2.index t (1 : Fin 3) = t.val % 8 ∧ win0_2.index t (2 : Fin 3) = 0
    ∧ win0_3.index t (0 : Fin 2) = t.val / 8 ∧ win0_3.index t (1 : Fin 2) = t.val % 8 :=
  (by decide +kernel : ∀ t : Fin grid0.N, _)

/-- The windows that hold a whole array have block index 0 at every point. -/
theorem idx_facts_whole4 : ∀ t : Fin cfg0.N, win0_4.index t (0 : Fin 2) = 0 ∧ win0_4.index t (1 : Fin 2) = 0 :=
  (by decide +kernel : ∀ t : Fin grid0.N, _)
theorem idx_facts_whole5 : ∀ t : Fin cfg0.N, win0_5.index t (0 : Fin 2) = 0 ∧ win0_5.index t (1 : Fin 2) = 0 :=
  (by decide +kernel : ∀ t : Fin grid0.N, _)
theorem idx_facts_whole6 : ∀ t : Fin cfg0.N, win0_6.index t (0 : Fin 2) = 0 ∧ win0_6.index t (1 : Fin 2) = 0 :=
  (by decide +kernel : ∀ t : Fin grid0.N, _)
theorem idx_facts_whole7 : ∀ t : Fin cfg0.N, win0_7.index t (0 : Fin 2) = 0 ∧ win0_7.index t (1 : Fin 2) = 0 :=
  (by decide +kernel : ∀ t : Fin grid0.N, _)
theorem idx_facts_whole8 : ∀ t : Fin cfg0.N, win0_8.index t (0 : Fin 2) = 0 ∧ win0_8.index t (1 : Fin 2) = 0 :=
  (by decide +kernel : ∀ t : Fin grid0.N, _)
theorem idx_facts_whole9 : ∀ t : Fin cfg0.N, win0_9.index t (0 : Fin 2) = 0 ∧ win0_9.index t (1 : Fin 2) = 0 :=
  (by decide +kernel : ∀ t : Fin grid0.N, _)
theorem idx_facts_whole10 : ∀ t : Fin cfg0.N, win0_10.index t (0 : Fin 1) = 0 :=
  (by decide +kernel : ∀ t : Fin grid0.N, _)

/-- The output window's index map: first coordinate t / 8, the feature axis not tiled. -/
theorem idx_facts11 : ∀ t : Fin cfg0.N, win0_11.index t (0 : Fin 2) = t.val / 8 ∧ win0_11.index t (1 : Fin 2) = 0 :=
  (by decide +kernel : ∀ t : Fin grid0.N, _)

/-! ## The input blocks at a local coordinate -/

/-- Window 0 at point t holds rows 128 (t / 8) .. of the node features. -/
theorem blk0_apply (c : Dev nD) (t : Fin cfg0.N) (r : Fin 128) (k : Fin 64) :
    iblk m c 0 t (ix2 r k) = m ((c : Thread nD τ).loc main_arg0) (ix2 (rowAt t r) k) := by
  obtain ⟨e0, e1, -⟩ := idx_facts t
  have ht := lt64 t
  show V m c main_arg0 (((cfg0.win 0).blk t).view.emb (ix2 r k)) = _
  rw [Vkept_main_arg0]
  refine congrArg _ (funext fun a => Fin.ext ?_)
  match a with
  | ⟨0, _⟩ => show win0_0.index t (0 : Fin 2) * 128 + 1 * r.val = 128 * (t.val / 8) + r.val; omega
  | ⟨1, _⟩ => show win0_0.index t (1 : Fin 2) * 64 + 1 * k.val = k.val; omega

/-- Window 1 at point t holds rows 128 (t % 8) .. of the node features. -/
theorem blk1_apply (c : Dev nD) (t : Fin cfg0.N) (b : Fin 128) (k : Fin 64) :
    iblk m c 1 t (ix2 b k) = m ((c : Thread nD τ).loc main_arg0) (ix2 (colAt t b) k) := by
  obtain ⟨-, -, e0, e1, -⟩ := idx_facts t
  show V m c main_arg0 (((cfg0.win 1).blk t).view.emb (ix2 b k)) = _
  rw [Vkept_main_arg0]
  refine congrArg _ (funext fun a => Fin.ext ?_)
  match a with
  | ⟨0, _⟩ => show win0_1.index t (0 : Fin 2) * 128 + 1 * b.val = 128 * (t.val % 8) + b.val; omega
  | ⟨1, _⟩ => show win0_1.index t (1 : Fin 2) * 64 + 1 * k.val = k.val; omega

/-- Window 2 at point t holds the block (t / 8, t % 8) of the pair features. -/
theorem blk2_apply (c : Dev nD) (t : Fin cfg0.N) (r b : Fin 128) (k : Fin 32) :
    iblk m c 2 t (ix3 r b k) = m ((c : Thread nD τ).loc main_arg2) (ix3 (rowAt t r) (colAt t b) k) := by
  obtain ⟨-, -, -, -, e0, e1, e2, -⟩ := idx_facts t
  show V m c main_arg2 (((cfg0.win 2).blk t).view.emb (ix3 r b k)) = _
  rw [Vkept_main_arg2]
  refine congrArg _ (funext fun a => Fin.ext ?_)
  match a with
  | ⟨0, _⟩ => show win0_2.index t (0 : Fin 3) * 128 + 1 * r.val = 128 * (t.val / 8) + r.val; omega
  | ⟨1, _⟩ => show win0_2.index t (1 : Fin 3) * 128 + 1 * b.val = 128 * (t.val % 8) + b.val; omega
  | ⟨2, _⟩ => show win0_2.index t (2 : Fin 3) * 32 + 1 * k.val = k.val; omega

/-- Window 3 at point t holds the block (t / 8, t % 8) of the mask. -/
theorem blk3_apply (c : Dev nD) (t : Fin cfg0.N) (r b : Fin 128) :
    iblk m c 3 t (ix2 r b) = m ((c : Thread nD τ).loc main_arg1) (ix2 (rowAt t r) (colAt t b)) := by
  obtain ⟨-, -, -, -, -, -, -, e0, e1⟩ := idx_facts t
  show V m c main_arg1 (((cfg0.win 3).blk t).view.emb (ix2 r b)) = _
  rw [Vkept_main_arg1]
  refine congrArg _ (funext fun a => Fin.ext ?_)
  match a with
  | ⟨0, _⟩ => show win0_3.index t (0 : Fin 2) * 128 + 1 * r.val = 128 * (t.val / 8) + r.val; omega
  | ⟨1, _⟩ => show win0_3.index t (1 : Fin 2) * 128 + 1 * b.val = 128 * (t.val % 8) + b.val; omega

/-- Window 4 holds, at every point, rows 0..63 of argument 3. -/
theorem blk4_apply (c : Dev nD) (t : Fin cfg0.N) (k : Fin 64) (o : Fin 64) :
    iblk m c 4 t (ix2 k o) = m ((c : Thread nD τ).loc main_arg3) (ix2 (Cert.Gnn.row1 k) o) := by
  obtain ⟨e0, e1⟩ := idx_facts_whole4 t
  show V m c main_v0 (((cfg0.win 4).blk t).view.emb (ix2 k o)) = _
  rw [V_main_v0]
  refine extractStridedSlice_apply _ _ _ _ _ (fun a => ?_)
  match a with
  | ⟨0, _⟩ => show k.val = 0 + (win0_4.index t (0 : Fin 2) * 64 + 1 * k.val); omega
  | ⟨1, _⟩ => show o.val = 0 + (win0_4.index t (1 : Fin 2) * 64 + 1 * o.val); omega

/-- Window 5 holds, at every point, rows 64..127 of argument 3. -/
theorem blk5_apply (c : Dev nD) (t : Fin cfg0.N) (k : Fin 64) (o : Fin 64) :
    iblk m c 5 t (ix2 k o) = m ((c : Thread nD τ).loc main_arg3) (ix2 (Cert.Gnn.row2 k) o) := by
  obtain ⟨e0, e1⟩ := idx_facts_whole5 t
  show V m c main_v1 (((cfg0.win 5).blk t).view.emb (ix2 k o)) = _
  rw [V_main_v1]
  refine extractStridedSlice_apply _ _ _ _ _ (fun a => ?_)
  match a with
  | ⟨0, _⟩ => show 64 + k.val = 64 + (win0_5.index t (0 : Fin 2) * 64 + 1 * k.val); omega
  | ⟨1, _⟩ => show o.val = 0 + (win0_5.index t (1 : Fin 2) * 64 + 1 * o.val); omega

/-- Window 6 holds, at every point, rows 128..159 of argument 3. -/
theorem blk6_apply (c : Dev nD) (t : Fin cfg0.N) (k : Fin 32) (o : Fin 64) :
    iblk m c 6 t (ix2 k o) = m ((c : Thread nD τ).loc main_arg3) (ix2 (Cert.Gnn.row3 k) o) := by
  obtain ⟨e0, e1⟩ := idx_facts_whole6 t
  show V m c main_v2 (((cfg0.win 6).blk t).view.emb (ix2 k o)) = _
  rw [V_main_v2]
  refine extractStridedSlice_apply _ _ _ _ _ (fun a => ?_)
  match a with
  | ⟨0, _⟩ => show 128 + k.val = 128 + (win0_6.index t (0 : Fin 2) * 32 + 1 * k.val); omega
  | ⟨1, _⟩ => show o.val = 0 + (win0_6.index t (1 : Fin 2) * 64 + 1 * o.val); omega

/-- Window 7 holds, at every point, rows 0..63 of argument 4. -/
theorem blk7_apply (c : Dev nD) (t : Fin cfg0.N) (k : Fin 64) (o : Fin 64) :
    iblk m c 7 t (ix2 k o) = m ((c : Thread nD τ).loc main_arg4) (ix2 (Cert.Gnn.row1 k) o) := by
  obtain ⟨e0, e1⟩ := idx_facts_whole7 t
  show V m c main_v3 (((cfg0.win 7).blk t).view.emb (ix2 k o)) = _
  rw [V_main_v3]
  refine extractStridedSlice_apply _ _ _ _ _ (fun a => ?_)
  match a with
  | ⟨0, _⟩ => show k.val = 0 + (win0_7.index t (0 : Fin 2) * 64 + 1 * k.val); omega
  | ⟨1, _⟩ => show o.val = 0 + (win0_7.index t (1 : Fin 2) * 64 + 1 * o.val); omega

/-- Window 8 holds, at every point, rows 64..127 of argument 4. -/
theorem blk8_apply (c : Dev nD) (t : Fin cfg0.N) (k : Fin 64) (o : Fin 64) :
    iblk m c 8 t (ix2 k o) = m ((c : Thread nD τ).loc main_arg4) (ix2 (Cert.Gnn.row2 k) o) := by
  obtain ⟨e0, e1⟩ := idx_facts_whole8 t
  show V m c main_v4 (((cfg0.win 8).blk t).view.emb (ix2 k o)) = _
  rw [V_main_v4]
  refine extractStridedSlice_apply _ _ _ _ _ (fun a => ?_)
  match a with
  | ⟨0, _⟩ => show 64 + k.val = 64 + (win0_8.index t (0 : Fin 2) * 64 + 1 * k.val); omega
  | ⟨1, _⟩ => show o.val = 0 + (win0_8.index t (1 : Fin 2) * 64 + 1 * o.val); omega

/-- Window 9 holds, at every point, rows 128..159 of argument 4. -/
theorem blk9_apply (c : Dev nD) (t : Fin cfg0.N) (k : Fin 32) (o : Fin 64) :
    iblk m c 9 t (ix2 k o) = m ((c : Thread nD τ).loc main_arg4) (ix2 (Cert.Gnn.row3 k) o) := by
  obtain ⟨e0, e1⟩ := idx_facts_whole9 t
  show V m c main_v5 (((cfg0.win 9).blk t).view.emb (ix2 k o)) = _
  rw [V_main_v5]
  refine extractStridedSlice_apply _ _ _ _ _ (fun a => ?_)
  match a with
  | ⟨0, _⟩ => show 128 + k.val = 128 + (win0_9.index t (0 : Fin 2) * 32 + 1 * k.val); omega
  | ⟨1, _⟩ => show o.val = 0 + (win0_9.index t (1 : Fin 2) * 64 + 1 * o.val); omega

/-- Window 10 holds the whole bias at every point. -/
theorem blk10_apply (c : Dev nD) (t : Fin cfg0.N) (o : Fin 64) :
    iblk m c 10 t (ix1 o) = m ((c : Thread nD τ).loc main_arg5) (ix1 o) := by
  have e0 := idx_facts_whole10 t
  show V m c main_arg5 (((cfg0.win 10).blk t).view.emb (ix1 o)) = _
  rw [Vkept_main_arg5]
  refine congrArg _ (funext fun a => Fin.ext ?_)
  match a with
  | ⟨0, _⟩ => show win0_10.index t (0 : Fin 1) * 64 + 1 * o.val = o.val; omega

/-! ## The output block -/

/-- The output block of point t, at local (r, o), is entry (128 (t / 8) + r, o) of the result array. -/
theorem emb11_apply (t : Fin cfg0.N) (r : Fin 128) (o : Fin 64) :
    (((cfg0.win 11).blk t).view.emb (ix2 r o) : S1024x64.Idx) = ix2 (rowAt t r) o := by
  obtain ⟨e0, e1⟩ := idx_facts11 t
  refine funext fun a => Fin.ext ?_
  match a with
  | ⟨0, _⟩ => show win0_11.index t (0 : Fin 2) * 128 + 1 * r.val = 128 * (t.val / 8) + r.val; omega
  | ⟨1, _⟩ => show win0_11.index t (1 : Fin 2) * 64 + 1 * o.val = o.val; omega

/-- An index of the result array lies in point t's output block iff each coordinate lies in the block's range. -/
theorem mem_blk11_axes (t : Fin cfg0.N) (y : S1024x64.Idx) :
    y ∈ ((cfg0.win 11).blk t).view.set ↔ ∀ a : Fin 2, win0_11.index t a * S128x64.size a ≤ (y a).val
      ∧ (y a).val < win0_11.index t a * S128x64.size a + S128x64.size a := by
  show y ∈ ((View.whole main_v6).slice (win0_11.rect t)).set ↔ _
  rw [View.set_slice_whole, Rect.mem_set_unit]
  exact Iff.rfl

/-- An index of the result array lies in point t's output block iff its row is one of the 128 rows from 128 (t / 8). -/
theorem mem_blk11 (t : Fin cfg0.N) (y : S1024x64.Idx) :
    y ∈ ((cfg0.win 11).blk t).view.set ↔ 128 * (t.val / 8) ≤ (y 0).val ∧ (y 0).val < 128 * (t.val / 8) + 128 := by
  obtain ⟨e0, e1⟩ := idx_facts11 t
  have h1 : (y 1).val < 64 := (y 1).isLt
  rw [mem_blk11_axes]
  constructor
  · intro hh
    have b0 : win0_11.index t (0 : Fin 2) * 128 ≤ (y 0).val ∧ (y 0).val < win0_11.index t (0 : Fin 2) * 128 + 128 := hh 0
    omega
  · intro hh a
    match a with
    | ⟨0, _⟩ => show win0_11.index t (0 : Fin 2) * 128 ≤ (y 0).val ∧ (y 0).val < win0_11.index t (0 : Fin 2) * 128 + 128; omega
    | ⟨1, _⟩ => show win0_11.index t (1 : Fin 2) * 64 ≤ (y 1).val ∧ (y 1).val < win0_11.index t (1 : Fin 2) * 64 + 64; omega

/-- Every index of the result array lies in the output block of a point whose second coordinate is 7: the point
    8 (row / 128) + 7. -/
theorem cover11 (y : S1024x64.Idx) : ∃ t : Fin cfg0.N, t.val % 8 = 7 ∧ y ∈ ((cfg0.win 11).blk t).view.set := by
  have h0 : (y 0).val < 1024 := (y 0).isLt
  refine ⟨⟨8 * ((y 0).val / 128) + 7, lt_of_lt_of_eq (by omega : 8 * ((y 0).val / 128) + 7 < 64) N_0.symm⟩, ?_, ?_⟩
  · show (8 * ((y 0).val / 128) + 7) % 8 = 7; omega
  · rw [mem_blk11]
    show 128 * ((8 * ((y 0).val / 128) + 7) / 8) ≤ (y 0).val ∧ (y 0).val < 128 * ((8 * ((y 0).val / 128) + 7) / 8) + 128
    omega

end Cert.KernelIdeal.Fr

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.KernelIdealFrame.Value.lean ====
/-
  The tiled kernel computes the layer.

  A point's blocks are pieces of the whole arrays: first-node rows 128 i + r, second-node rows 128 j + b, and the three
  row bands of the two weight matrices. So a point's tile sum is the sum, over the 128 second nodes of column tile j, of
  the gate of the whole-array pre-activations; the eight tile sums of a grid row add up to the sum over all 1024
  second nodes; and the output block stored at the end of grid row i is rows 128 i .. 128 i + 127 of the layer. The
  eight stored blocks tile the result array.
-/
import proofs.«126757_j3418793968215_1_alg».proof.Proof.KernelIdealFrame.Accum
import proofs.«126757_j3418793968215_1_alg».proof.Proof.KernelIdealFrame.Blocks
import proofs.«126757_j3418793968215_1_alg».proof.Proof.LibTileSum
import Idealize.ShloMosaic.Lib.Pipeline.Value

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- A point's tile pre-activation under W is the whole-array pre-activation of the pair it stands for. -/
theorem preTile_main (c : Dev nD) (t : Fin cfg0.N) (r b : Fin 128) (o : Fin 64) :
    Cert.Gnn.preTile (iblk m c 0 t : Vec Ideal S128x64 .f32) (iblk m c 1 t : Vec Ideal S128x64 .f32) (iblk m c 2 t : Vec Ideal S128x128x32 .f32) (iblk m c 3 t : Vec Ideal S128x128 .f32) (iblk m c 4 t : Vec Ideal S64x64 .f32) (iblk m c 5 t : Vec Ideal S64x64 .f32) (iblk m c 6 t : Vec Ideal S32x64 .f32) (iblk m c 10 t : Vec Ideal S64 .f32) r b o
      = Cert.Gnn.pre (m ((c : Thread nD τ).loc main_arg0)) (m ((c : Thread nD τ).loc main_arg1)) (m ((c : Thread nD τ).loc main_arg2)) (m ((c : Thread nD τ).loc main_arg3)) (m ((c : Thread nD τ).loc main_arg5)) (rowAt t r) (colAt t b) o := by
  unfold Cert.Gnn.preTile Cert.Gnn.pre
  simp only [blk0_apply, blk1_apply, blk2_apply, blk3_apply, blk4_apply, blk5_apply, blk6_apply, blk10_apply]

/-- The same under Wa. -/
theorem preTile_att (c : Dev nD) (t : Fin cfg0.N) (r b : Fin 128) (o : Fin 64) :
    Cert.Gnn.preTile (iblk m c 0 t : Vec Ideal S128x64 .f32) (iblk m c 1 t : Vec Ideal S128x64 .f32) (iblk m c 2 t : Vec Ideal S128x128x32 .f32) (iblk m c 3 t : Vec Ideal S128x128 .f32) (iblk m c 7 t : Vec Ideal S64x64 .f32) (iblk m c 8 t : Vec Ideal S64x64 .f32) (iblk m c 9 t : Vec Ideal S32x64 .f32) (iblk m c 10 t : Vec Ideal S64 .f32) r b o
      = Cert.Gnn.pre (m ((c : Thread nD τ).loc main_arg0)) (m ((c : Thread nD τ).loc main_arg1)) (m ((c : Thread nD τ).loc main_arg2)) (m ((c : Thread nD τ).loc main_arg4)) (m ((c : Thread nD τ).loc main_arg5)) (rowAt t r) (colAt t b) o := by
  unfold Cert.Gnn.preTile Cert.Gnn.pre
  simp only [blk0_apply, blk1_apply, blk2_apply, blk3_apply, blk7_apply, blk8_apply, blk9_apply, blk10_apply]

/-- A point's tile sum, over the whole arrays. -/
theorem stepSum_eq (c : Dev nD) (t : Fin cfg0.N) (r : Fin 128) (o : Fin 64) :
    stepSum m c t r o = ∑ b : Fin 128, Cert.Gnn.gate (Cert.Gnn.pre (m ((c : Thread nD τ).loc main_arg0)) (m ((c : Thread nD τ).loc main_arg1)) (m ((c : Thread nD τ).loc main_arg2)) (m ((c : Thread nD τ).loc main_arg3)) (m ((c : Thread nD τ).loc main_arg5)) (rowAt t r) (colAt t b) o) (Cert.Gnn.pre (m ((c : Thread nD τ).loc main_arg0)) (m ((c : Thread nD τ).loc main_arg1)) (m ((c : Thread nD τ).loc main_arg2)) (m ((c : Thread nD τ).loc main_arg4)) (m ((c : Thread nD τ).loc main_arg5)) (rowAt t r) (colAt t b) o) := by
  unfold stepSum Cert.Gnn.tileSum
  exact Finset.sum_congr rfl fun b _ => by rw [preTile_main, preTile_att]

/-- The layer of the argument arrays, as contents of the result array. -/
def result (c : Dev nD) : Buf (Elt Ideal) ((c : Thread nD τ).loc main_v6) :=
  Cert.Gnn.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- At the end of a grid row the scratch holds that row tile of the layer. -/
theorem row_total (c : Dev nD) (t : Fin cfg0.N) (h7 : t.val % 8 = 7) (r : Fin 128) (o : Fin 64) :
    accAt m c t r o = result m c (ix2 (rowAt t r) o) := by
  have h64 := lt64 t
  have ht : t = pt ⟨t.val / 8, by omega⟩ 7 := Fin.ext (by show t.val = 8 * (t.val / 8) + 7; omega)
  refine (congrArg (fun t' => accAt m c t' r o) ht).trans ?_
  rw [accAt_row]
  show _ = ∑ b' : Fin 1024, Cert.Gnn.gate (Cert.Gnn.pre (m ((c : Thread nD τ).loc main_arg0)) (m ((c : Thread nD τ).loc main_arg1)) (m ((c : Thread nD τ).loc main_arg2)) (m ((c : Thread nD τ).loc main_arg3)) (m ((c : Thread nD τ).loc main_arg5)) (rowAt t r) b' o) (Cert.Gnn.pre (m ((c : Thread nD τ).loc main_arg0)) (m ((c : Thread nD τ).loc main_arg1)) (m ((c : Thread nD τ).loc main_arg2)) (m ((c : Thread nD τ).loc main_arg4)) (m ((c : Thread nD τ).loc main_arg5)) (rowAt t r) b' o)
  refine Eq.trans ?_ (Cert.Lib.TileSum.sum_fin_tiles 8 128 (fun b' : Fin 1024 => Cert.Gnn.gate (Cert.Gnn.pre (m ((c : Thread nD τ).loc main_arg0)) (m ((c : Thread nD τ).loc main_arg1)) (m ((c : Thread nD τ).loc main_arg2)) (m ((c : Thread nD τ).loc main_arg3)) (m ((c : Thread nD τ).loc main_arg5)) (rowAt t r) b' o) (Cert.Gnn.pre (m ((c : Thread nD τ).loc main_arg0)) (m ((c : Thread nD τ).loc main_arg1)) (m ((c : Thread nD τ).loc main_arg2)) (m ((c : Thread nD τ).loc main_arg4)) (m ((c : Thread nD τ).loc main_arg5)) (rowAt t r) b' o))).symm
  refine Finset.sum_congr rfl fun j _ => ?_
  rw [stepSum_eq]
  refine Finset.sum_congr rfl fun b _ => ?_
  have hj := j.isLt
  have hr : rowAt (pt ⟨t.val / 8, by omega⟩ j) r = rowAt t r :=
    Fin.ext (by show 128 * ((8 * (t.val / 8) + j.val) / 8) + r.val = 128 * (t.val / 8) + r.val; omega)
  have hc : colAt (pt ⟨t.val / 8, by omega⟩ j) b = (⟨128 * j.val + b.val, Cert.Lib.TileSum.tile_lt j.isLt b.isLt⟩ : Fin (8 * 128)) :=
    Fin.ext (by show 128 * ((8 * (t.val / 8) + j.val) % 8) + b.val = 128 * j.val + b.val; omega)
  rw [hr, hc]

/-- The output block stored at the end of a grid row, index by index. -/
theorem out_block (c : Dev nD) (t : Fin cfg0.N) (h7 : t.val % 8 = 7) (y : S128x64.Idx) :
    (outsAt0 m c t.val t.isLt).1 y = result m c (((cfg0.win 11).blk t).view.emb y) := by
  obtain ⟨r, o, rfl⟩ : ∃ (r : Fin 128) (o : Fin 64), y = ix2 r o := ⟨y 0, y 1, eq_ix2 y⟩
  rw [emb11_apply, out_eq_acc m c t h7]
  exact row_total m c t h7 r o

/-- What a write-back writes is that block of the layer. -/
theorem flushed_eq (c : Dev nD) (t : Fin cfg0.N) (hf : (cfg0.win 11).flush t = true) :
    (dats m 0 c).flushed 11 t = ((cfg0.win 11).blk t).view.read (Elt Ideal) (result m c) := by
  have h7 : t.val % 8 = 7 := (flush0_11 t).mp hf
  show (cfg0.win 11).cut (grid0.coords t) ((dats m 0 c).after 11 t) = _
  rw [after0_11]
  funext y
  rw [View.read_apply]
  exact out_block m c t h7 y

/-- The eight write-backs tile the result array, so it ends holding the layer. -/
theorem final_o (c : Dev nD) : (dats m 0 c).arrAt 11 cfg0.N = result m c :=
  (dats m 0 c).arrAt_eq_of_cover 11 (result m c) (flushed_eq m c) fun y => by
    obtain ⟨t, h7, hy⟩ := cover11 y
    exact ⟨t, (flush0_11 t).mpr h7, hy⟩

/-- The run, read: the result array at the layer of the argument arrays, the arguments unchanged. -/
theorem value_run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 11).trans (final_o m c),
     ((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).1 2).trans (((dats m 0 c).arrAt_in 2 rfl _).trans ((A_eq m c 2).trans (V_main_arg2 m c))),
     ((h c).2 main_arg3 (Pipeline.mem_restRefs_of main_arg3 rfl (by decide))).trans (V_main_arg3 m c),
     ((h c).2 main_arg4 (Pipeline.mem_restRefs_of main_arg4 rfl (by decide))).trans (V_main_arg4 m c),
     ((h c).1 10).trans (((dats m 0 c).arrAt_in 10 rfl _).trans ((A_eq m c 10).trans (V_main_arg5 m c)))⟩) (run_main m ρ)

end Cert.KernelIdeal.Fr

end
-- ==== Proof.RefAlgebra.lean ====
/-
  Real numbers inside the extended reals: a common factor leaves a sum of products, and a sum over the 160 rows
  of a weight matrix is the sum over its three row bands (64 rows, 64 rows, 32 rows).

  On the extended reals multiplication does not distribute over addition in general (the product of an infinite
  value with a sum of opposite signs is the obstruction), so the factoring law is stated for entries that are real
  numbers and proved in the reals.
-/
import proofs.«126757_j3418793968215_1_alg».proof.Proof.Spec

noncomputable section

open scoped BigOperators

namespace Cert.Gnn

/-- The coercion of a finite sum of reals is the sum of the coercions. -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor m leaves a finite sum of products of reals: sum_k (u k * m) * x k = (sum_k u k * x k) * m. -/
theorem sum_mul_factor {ι : Type*} [Fintype ι] (u x : ι → ℝ) (m : ℝ) :
    ∑ k, (((u k : ℝ) : EReal) * (m : EReal)) * ((x k : ℝ) : EReal)
      = (∑ k, ((u k : ℝ) : EReal) * ((x k : ℝ) : EReal)) * (m : EReal) := by
  simp only [← EReal.coe_mul, ← coe_sum]
  rw [Finset.sum_mul]
  exact congrArg _ (Finset.sum_congr rfl fun k _ => by ring)

/-- Three sums of products of reals with one common real factor m: the factor leaves the sum of the three. -/
theorem three_sums_factor {ι₁ ι₂ ι₃ : Type*} [Fintype ι₁] [Fintype ι₂] [Fintype ι₃]
    (u₁ x₁ : ι₁ → ℝ) (u₂ x₂ : ι₂ → ℝ) (u₃ x₃ : ι₃ → ℝ) (m : ℝ) :
    (∑ k, (((u₁ k : ℝ) : EReal) * (m : EReal)) * ((x₁ k : ℝ) : EReal))
        + (∑ k, (((u₂ k : ℝ) : EReal) * (m : EReal)) * ((x₂ k : ℝ) : EReal))
        + (∑ k, (((u₃ k : ℝ) : EReal) * (m : EReal)) * ((x₃ k : ℝ) : EReal))
      = ((∑ k, ((u₁ k : ℝ) : EReal) * ((x₁ k : ℝ) : EReal)) + (∑ k, ((u₂ k : ℝ) : EReal) * ((x₂ k : ℝ) : EReal))
          + (∑ k, ((u₃ k : ℝ) : EReal) * ((x₃ k : ℝ) : EReal))) * (m : EReal) := by
  rw [sum_mul_factor, sum_mul_factor, sum_mul_factor]
  simp only [← EReal.coe_mul, ← coe_sum, ← EReal.coe_add]
  exact congrArg _ (by ring)

/-- A sum over the 160 rows is the sum over rows 0..63, plus the sum over rows 64..127, plus the sum over rows
    128..159. -/
theorem sum_rows {M : Type*} [AddCommMonoid M] (f : Fin 160 → M) :
    ∑ k : Fin 160, f k
      = (∑ k : Fin 64, f (row1 k)) + (∑ k : Fin 64, f (row2 k)) + (∑ k : Fin 32, f (row3 k)) := by
  show ∑ k : Fin (64 + 64 + 32), f k = _
  rw [Fin.sum_univ_add, Fin.sum_univ_add]
  rfl

/-- The word 0x3F800000 is the number one. -/
theorem ofBits_one_f32 : Idealize.ShloMosaic.Ideal.ofBits .f32 0x3F800000#32 = 1 := by
  simp [Idealize.ShloMosaic.Ideal.ofBits, Idealize.ShloMosaic.Ideal.ieee, -EReal.coe_mul]; norm_num

open Idealize.ShloMosaic Idealize.ShloMosaic.ValueIdx in
/-- A sum over the 160 rows of products c k * X(k, o), where c is the node features of a, of b and the pair
    features of (a, b) laid end to end and each multiplied by the mask entry of (a, b), plus the bias, is the
    pre-activation: the mask entry leaves the three sums because every entry is a real number. -/
theorem pre_of_rows
    (H : (⟨2, ![1024, 64]⟩ : Shape).Idx → EReal) (A : (⟨2, ![1024, 1024]⟩ : Shape).Idx → EReal)
    (E : (⟨3, ![1024, 1024, 32]⟩ : Shape).Idx → EReal) (X : (⟨2, ![160, 64]⟩ : Shape).Idx → EReal)
    (bias : (⟨1, ![64]⟩ : Shape).Idx → EReal)
    (hH : ∀ i, ∃ x : ℝ, H i = (x : EReal)) (hA : ∀ i, ∃ x : ℝ, A i = (x : EReal))
    (hE : ∀ i, ∃ x : ℝ, E i = (x : EReal)) (hX : ∀ i, ∃ x : ℝ, X i = (x : EReal))
    (a b : Fin 1024) (o : Fin 64) (c : Fin 160 → EReal)
    (c1 : ∀ k : Fin 64, c (row1 k) = H (ix2 a k) * A (ix2 a b))
    (c2 : ∀ k : Fin 64, c (row2 k) = H (ix2 b k) * A (ix2 a b))
    (c3 : ∀ k : Fin 32, c (row3 k) = E (ix3 a b k) * A (ix2 a b)) :
    (∑ k : Fin 160, c k * X (ix2 k o)) + bias (ix1 o) = pre H A E X bias a b o := by
  choose h hh using hH
  choose am ha using hA
  choose e he using hE
  choose x hx using hX
  rw [sum_rows, pre]
  simp only [c1, c2, c3, hh, ha, he, hx]
  exact congrArg (· + bias (ix1 o)) (three_sums_factor (fun k => h (ix2 a k)) (fun k => x (ix2 (row1 k) o))
    (fun k => h (ix2 b k)) (fun k => x (ix2 (row2 k) o)) (fun k => e (ix3 a b k)) (fun k => x (ix2 (row3 k) o))
    (am (ix2 a b)))

end Cert.Gnn

end
-- ==== Proof.RefValue.lean ====
/-
  The reference evaluation read index by index: its result is the layer of Spec.lean.

  The reference joins, for every pair (a, b), the features of a, the features of b and the pair features of (a, b)
  into one row of 160 entries, multiplies the row by the mask entry of (a, b), contracts it with a 160-row weight
  matrix, adds the bias, and sums max(., 0) * 1 / (1 + exp(-.)) of the two pre-activations over b. Read at an index
  the joined row is one of its three pieces on each row band; the contraction over 160 rows is then the sum of the
  three band sums, out of which the mask entry factors because every entry is a real number.
-/
import proofs.«126757_j3418793968215_1_alg».proof.Proof.Spec
import proofs.«126757_j3418793968215_1_alg».proof.Proof.Gen.ReferenceIdeal.Run
import proofs.«126757_j3418793968215_1_alg».proof.Proof.Gen.ReferenceIdeal.Read
import proofs.«126757_j3418793968215_1_alg».proof.Proof.RefAlgebra

noncomputable section

open scoped BigOperators

namespace Cert.Gnn.Ref

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

/-! ## The joined row, band by band -/

/-- The joined array on rows 0..63: the first piece. -/
theorem cat_row1 (y1 y3 : S1024x1024x64.Idx → EReal) (y2 : S1024x1024x32.Idx → EReal) (a b : Fin 1024) (k : Fin 64) :
    concatenate S1024x1024x160 2 [⟨S1024x1024x64, y1⟩, ⟨S1024x1024x64, y3⟩, ⟨S1024x1024x32, y2⟩]
        concatenates_S1024x1024x64_S1024x1024x64_S1024x1024x32_S1024x1024x160_d2 (ix3 a b (row1 k))
      = y1 (ix3 a b k) :=
  concatenate_apply_piece (2 : Fin 3) _ _ (ix3 a b (row1 k)) 0 (by show (0 : Nat) < 3; decide) S1024x1024x64 y1 rfl rfl
    0 rfl (ix3 a b k)
    (fun d hd => by match d with
      | ⟨0, _⟩ => rfl
      | ⟨1, _⟩ => rfl
      | ⟨2, _⟩ => exact absurd rfl hd)
    (by show 0 + k.val = k.val; omega)

/-- The joined array on rows 64..127: the second piece. -/
theorem cat_row2 (y1 y3 : S1024x1024x64.Idx → EReal) (y2 : S1024x1024x32.Idx → EReal) (a b : Fin 1024) (k : Fin 64) :
    concatenate S1024x1024x160 2 [⟨S1024x1024x64, y1⟩, ⟨S1024x1024x64, y3⟩, ⟨S1024x1024x32, y2⟩]
        concatenates_S1024x1024x64_S1024x1024x64_S1024x1024x32_S1024x1024x160_d2 (ix3 a b (row2 k))
      = y3 (ix3 a b k) :=
  concatenate_apply_piece (2 : Fin 3) _ _ (ix3 a b (row2 k)) 1 (by show (1 : Nat) < 3; decide) S1024x1024x64 y3 rfl rfl
    64 rfl (ix3 a b k)
    (fun d hd => by match d with
      | ⟨0, _⟩ => rfl
      | ⟨1, _⟩ => rfl
      | ⟨2, _⟩ => exact absurd rfl hd)
    (by show 64 + k.val = 64 + k.val; rfl)

/-- The joined array on rows 128..159: the third piece. -/
theorem cat_row3 (y1 y3 : S1024x1024x64.Idx → EReal) (y2 : S1024x1024x32.Idx → EReal) (a b : Fin 1024) (k : Fin 32) :
    concatenate S1024x1024x160 2 [⟨S1024x1024x64, y1⟩, ⟨S1024x1024x64, y3⟩, ⟨S1024x1024x32, y2⟩]
        concatenates_S1024x1024x64_S1024x1024x64_S1024x1024x32_S1024x1024x160_d2 (ix3 a b (row3 k))
      = y2 (ix3 a b k) :=
  concatenate_apply_piece (2 : Fin 3) _ _ (ix3 a b (row3 k)) 2 (by show (2 : Nat) < 3; decide) S1024x1024x32 y2 rfl rfl
    128 rfl (ix3 a b k)
    (fun d hd => by match d with
      | ⟨0, _⟩ => rfl
      | ⟨1, _⟩ => rfl
      | ⟨2, _⟩ => exact absurd rfl hd)
    (by show 128 + k.val = 128 + k.val; rfl)

variable (H : (⟨S1024x64, .f32⟩ : BufTy).Contents (Elt Ideal)) (A : (⟨S1024x1024, .f32⟩ : BufTy).Contents (Elt Ideal))
  (E : (⟨S1024x1024x32, .f32⟩ : BufTy).Contents (Elt Ideal)) (W Wa X : (⟨S160x64, .f32⟩ : BufTy).Contents (Elt Ideal))
  (bias : (⟨S64, .f32⟩ : BufTy).Contents (Elt Ideal))

/-! ## The masked joined row, band by band -/

/-- On rows 0..63 the masked joined row of (a, b) holds the features of a times the mask entry. -/
theorem masked_row1 (a b : Fin 1024) (k : Fin 64) :
    val_main_v7 (F := Ideal) H A E (ix3 a b (row1 k)) = H (ix2 a k) * A (ix2 a b) := by
  rw [val_main_v7_apply, val_main_v6_apply, val_main_v5_apply]
  unfold val_main_v4
  rw [cat_row1, val_main_v1_apply, val_main_v0_apply]
  exact congrArg₂ (· * ·) (congrArg H (funext fun d => by match d with | ⟨0, _⟩ => rfl | ⟨1, _⟩ => rfl)) (congrArg A (funext fun d => by match d with | ⟨0, _⟩ => rfl | ⟨1, _⟩ => rfl))

/-- On rows 64..127 the masked joined row of (a, b) holds the features of b times the mask entry. -/
theorem masked_row2 (a b : Fin 1024) (k : Fin 64) :
    val_main_v7 (F := Ideal) H A E (ix3 a b (row2 k)) = H (ix2 b k) * A (ix2 a b) := by
  rw [val_main_v7_apply, val_main_v6_apply, val_main_v5_apply]
  unfold val_main_v4
  rw [cat_row2, val_main_v3_apply, val_main_v2_apply]
  exact congrArg₂ (· * ·) (congrArg H (funext fun d => by match d with | ⟨0, _⟩ => rfl | ⟨1, _⟩ => rfl)) (congrArg A (funext fun d => by match d with | ⟨0, _⟩ => rfl | ⟨1, _⟩ => rfl))

/-- On rows 128..159 the masked joined row of (a, b) holds the pair features of (a, b) times the mask entry. -/
theorem masked_row3 (a b : Fin 1024) (k : Fin 32) :
    val_main_v7 (F := Ideal) H A E (ix3 a b (row3 k)) = E (ix3 a b k) * A (ix2 a b) := by
  rw [val_main_v7_apply, val_main_v6_apply, val_main_v5_apply]
  unfold val_main_v4
  rw [cat_row3]
  exact congrArg₂ (· * ·) (congrArg E (funext fun d => by match d with | ⟨0, _⟩ => rfl | ⟨1, _⟩ => rfl | ⟨2, _⟩ => rfl)) (congrArg A (funext fun d => by match d with | ⟨0, _⟩ => rfl | ⟨1, _⟩ => rfl))

/-! ## The two pre-activations -/

/-- The reference's first pre-activation (weights X := W) at (a, b, o) is the specification's. -/
theorem pre_main (hH : ∀ i, ∃ x : ℝ, H i = (x : EReal)) (hA : ∀ i, ∃ x : ℝ, A i = (x : EReal))
    (hE : ∀ i, ∃ x : ℝ, E i = (x : EReal)) (hX : ∀ i, ∃ x : ℝ, X i = (x : EReal)) (a b : Fin 1024) (o : Fin 64) :
    val_main_v11 (F := Ideal) H A E X bias (ix3 a b o) = pre H A E X bias a b o := by
  have el : ∀ k : Fin 160, lidx_main_v8 (ix3 a b o) k = ix3 a b k := fun k => (funext fun d => by match d with | ⟨0, _⟩ => rfl | ⟨1, _⟩ => rfl | ⟨2, _⟩ => rfl)
  have er : ∀ k : Fin 160, ridx_main_v8 (ix3 a b o) k = ix2 k o := fun k => (funext fun d => by match d with | ⟨0, _⟩ => rfl | ⟨1, _⟩ => rfl)
  have eb : idx_main_v9 (idx_main_v10 (ix3 a b o)) = ix1 o := funext fun d => by match d with | ⟨0, _⟩ => rfl
  rw [val_main_v11_apply, val_main_v8_apply, val_main_v10_apply, val_main_v9_apply, eb]
  refine Eq.trans (congrArg (fun s : EReal => s + bias (ix1 o)) (Finset.sum_congr rfl fun k _ => ?_))
    (pre_of_rows H A E X bias hH hA hE hX a b o (fun k => val_main_v7 (F := Ideal) H A E (ix3 a b k))
      (masked_row1 H A E a b) (masked_row2 H A E a b) (masked_row3 H A E a b))
  rw [el k, er k]

/-- The reference's second pre-activation (weights X := Wa) at (a, b, o) is the specification's. -/
theorem pre_att (hH : ∀ i, ∃ x : ℝ, H i = (x : EReal)) (hA : ∀ i, ∃ x : ℝ, A i = (x : EReal))
    (hE : ∀ i, ∃ x : ℝ, E i = (x : EReal)) (hX : ∀ i, ∃ x : ℝ, X i = (x : EReal)) (a b : Fin 1024) (o : Fin 64) :
    val_main_v15 (F := Ideal) H A E X bias (ix3 a b o) = pre H A E X bias a b o := by
  have el : ∀ k : Fin 160, lidx_main_v12 (ix3 a b o) k = ix3 a b k := fun k => (funext fun d => by match d with | ⟨0, _⟩ => rfl | ⟨1, _⟩ => rfl | ⟨2, _⟩ => rfl)
  have er : ∀ k : Fin 160, ridx_main_v12 (ix3 a b o) k = ix2 k o := fun k => (funext fun d => by match d with | ⟨0, _⟩ => rfl | ⟨1, _⟩ => rfl)
  have eb : idx_main_v13 (idx_main_v14 (ix3 a b o)) = ix1 o := funext fun d => by match d with | ⟨0, _⟩ => rfl
  rw [val_main_v15_apply, val_main_v12_apply, val_main_v14_apply, val_main_v13_apply, eb]
  refine Eq.trans (congrArg (fun s : EReal => s + bias (ix1 o)) (Finset.sum_congr rfl fun k _ => ?_))
    (pre_of_rows H A E X bias hH hA hE hX a b o (fun k => val_main_v7 (F := Ideal) H A E (ix3 a b k))
      (masked_row1 H A E a b) (masked_row2 H A E a b) (masked_row3 H A E a b))
  rw [el k, er k]

/-! ## The gate and the sum over the second node -/

/-- The reference's gated product at (a, b, o): max(., 0) of the first pre-activation times 1 / (1 + exp(-.)) of
    the second, which is the gate. -/
theorem gated (a b : Fin 1024) (o : Fin 64) :
    val_main_v23 (F := Ideal) H A E W Wa bias (ix3 a b o)
      = gate (val_main_v11 (F := Ideal) H A E W bias (ix3 a b o)) (val_main_v15 (F := Ideal) H A E Wa bias (ix3 a b o)) := by
  rw [val_main_v23_apply, val_main_v16_apply, val_main_call0_v0_apply, val_main_call0_cst_apply, val_main_v22_apply,
    val_main_v21_apply, val_main_cst_0_apply, val_main_v20_apply, val_main_v19_apply, val_main_cst_apply,
    val_main_v18_apply, val_main_v17_apply]
  simp only [Ideal.ofBits_def, Ideal.ofBits_zero_f32, ofBits_one_f32]
  rfl

/-- **The reference's result is the layer**, for argument arrays whose entries are real numbers. -/
theorem result_eq_layer (hH : ∀ i, ∃ x : ℝ, H i = (x : EReal)) (hA : ∀ i, ∃ x : ℝ, A i = (x : EReal))
    (hE : ∀ i, ∃ x : ℝ, E i = (x : EReal)) (hW : ∀ i, ∃ x : ℝ, W i = (x : EReal))
    (hWa : ∀ i, ∃ x : ℝ, Wa i = (x : EReal)) :
    val_main_v24 (F := Ideal) H A E W Wa bias = Cert.Gnn.layer H A E W Wa bias := by
  funext i
  obtain ⟨a, o, rfl⟩ : ∃ (a : Fin 1024) (o : Fin 64), i = ix2 a o := ⟨i 0, i 1, eq_ix2 i⟩
  rw [val_main_v24_apply, val_main_cst_1_apply, Ideal.ofBits_def, Ideal.ofBits_zero_f32, zero_add]
  show _ = ∑ b : Fin 1024, gate (pre H A E W bias a b o) (pre H A E Wa bias a b o)
  refine Finset.sum_congr rfl fun b _ => ?_
  have e : idx_main_v24 (ix2 a o) b = ix3 a b o := (funext fun d => by match d with | ⟨0, _⟩ => rfl | ⟨1, _⟩ => rfl | ⟨2, _⟩ => rfl)
  rw [e, gated, pre_main H A E W bias hH hA hE hW, pre_att H A E Wa bias hH hA hE hWa]

/-! ## The reference's run -/

/-- Every weakly fair execution of the reference, from a memory whose first five argument arrays have real entries
    on every device, terminates with its result at the layer of the arguments and the arguments unchanged. -/
theorem ref_run (m' : (ℓ : Loc nD τ sig) → Buf (Elt Ideal) ℓ) (ρ' : Dev nD → PrngReg)
    (h0 : ∀ (c : Dev nD) (i : S1024x64.Idx), ∃ x : ℝ, m' ((c.tc : Thread nD τ).loc main_arg0) i = (x : EReal))
    (h1 : ∀ (c : Dev nD) (i : S1024x1024.Idx), ∃ x : ℝ, m' ((c.tc : Thread nD τ).loc main_arg1) i = (x : EReal))
    (h2 : ∀ (c : Dev nD) (i : S1024x1024x32.Idx), ∃ x : ℝ, m' ((c.tc : Thread nD τ).loc main_arg2) i = (x : EReal))
    (h3 : ∀ (c : Dev nD) (i : S160x64.Idx), ∃ x : ℝ, m' ((c.tc : Thread nD τ).loc main_arg3) i = (x : EReal))
    (h4 : ∀ (c : Dev nD) (i : S160x64.Idx), ∃ x : ℝ, m' ((c.tc : Thread nD τ).loc main_arg4) i = (x : EReal)) :
    θ_run (defs (F := Ideal)) (onTc (τ := τ) (main (F := Ideal))) ⟨m', fun _ => 0, ρ'⟩ fun r => ∀ c : Dev nD,
      r.2.mem ((c.tc : Thread nD τ).loc main_v24)
          = Cert.Gnn.layer (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  (θ_run defs _ _).mono (fun _ h c => ⟨(h c).1.trans ((val_main_v24_eq _ _ _ _ _ _).trans
      (result_eq_layer _ _ _ _ _ _ (h0 c) (h1 c) (h2 c) (h3 c) (h4 c))), (h c).2⟩)
    (Cert.ReferenceIdeal.Value.run (F := Ideal) m' ρ')

end Cert.Gnn.Ref

end
-- ==== Proof.Finite.lean ====
/-
  The precondition read back: every entry of every argument array is a real number.

  The precondition says, array by array, that the conjunction over all entries x of |x| < +infinity is true. A
  conjunction that is true has every conjunct true, and an extended real whose absolute value max(x, -x) is below
  +infinity is neither infinity, hence a real number.
-/
import proofs.«126757_j3418793968215_1_alg».proof.Defs
import Idealize.ShloMosaic.Lib.ReduceAll
import Idealize.ShloMosaic.Lib.ValueIdx

noncomputable section

namespace Cert.Gnn

open Idealize.ShloMosaic Idealize.SL.Sem

/-- An extended real whose absolute value is below the word 0x7F800000, which is +infinity, is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- The scalar shape has one index. -/
instance subsingleton_scalar_idx : Subsingleton (⟨0, ![]⟩ : Shape).Idx := ⟨fun a b => funext fun d => d.elim0⟩

/-- An array all of whose entries pass |x| < +infinity (the conjunction over every entry, from true, is true) has
    only real entries. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf x)
          (broadcastInDim s ![] hb (constant (F := Ideal) (⟨0, ![]⟩ : Shape) .f32 0x7F800000#32)))
        (constantI (⟨0, ![]⟩ : Shape) 1 1#1) hr hu ValueIdx.ix0 = 1#1) (i : s.Idx) :
    ∃ r : ℝ, x i = (r : EReal) :=
  real_of_abs_lt_inf (x i) (Host.reduce_andi_all _ _ hr hu ValueIdx.ix0 e i)

/-- **Under the precondition every entry of every argument array is a real number**, on every device. -/
theorem finite_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Cert.KernelIdeal.S1024x64.Idx, ∃ x : ℝ, m ((c.tc : Thread Cert.KernelIdeal.nD Cert.KernelIdeal.τ).loc Cert.KernelIdeal.main_arg0) i = (x : EReal))
    ∧ (∀ i : Cert.KernelIdeal.S1024x1024.Idx, ∃ x : ℝ, m ((c.tc : Thread Cert.KernelIdeal.nD Cert.KernelIdeal.τ).loc Cert.KernelIdeal.main_arg1) i = (x : EReal))
    ∧ (∀ i : Cert.KernelIdeal.S1024x1024x32.Idx, ∃ x : ℝ, m ((c.tc : Thread Cert.KernelIdeal.nD Cert.KernelIdeal.τ).loc Cert.KernelIdeal.main_arg2) i = (x : EReal))
    ∧ (∀ i : Cert.KernelIdeal.S160x64.Idx, ∃ x : ℝ, m ((c.tc : Thread Cert.KernelIdeal.nD Cert.KernelIdeal.τ).loc Cert.KernelIdeal.main_arg3) i = (x : EReal))
    ∧ (∀ i : Cert.KernelIdeal.S160x64.Idx, ∃ x : ℝ, m ((c.tc : Thread Cert.KernelIdeal.nD Cert.KernelIdeal.τ).loc Cert.KernelIdeal.main_arg4) i = (x : EReal))
    ∧ (∀ i : Cert.KernelIdeal.S64.Idx, ∃ x : ℝ, m ((c.tc : Thread Cert.KernelIdeal.nD Cert.KernelIdeal.τ).loc Cert.KernelIdeal.main_arg5) i = (x : EReal)) := by
  have h := congrFun (hpre c) ValueIdx.ix0
  dsimp only [Cert.Pre_finite_inputs.fn, Cert.Pre_finite_inputs.fn_part1] at h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨real_of_all _ _ _ _ e0, real_of_all _ _ _ _ e1, real_of_all _ _ _ _ e2, real_of_all _ _ _ _ e3,
    real_of_all _ _ _ _ e4, real_of_all _ _ _ _ e5⟩

end Cert.Gnn

end
-- ==== Proof.lean ====
/-
  A gated pair layer, tiled: the certificate.

  The layer takes node features H (1024 x 64), a pair mask A (1024 x 1024), pair features E (1024 x 1024 x 32), two
  weight matrices W, Wa (160 x 64) and a bias (64). For every pair (a, b) it forms, under each weight matrix X, the
  pre-activation  (H[a] . X[0:64] + H[b] . X[64:128] + E[a,b] . X[128:160]) * A[a,b] + bias,  gates the W one by the
  Wa one (positive part times logistic), and sums over b.

  The kernel evaluates this on an 8 x 8 grid of 128 x 128 tiles of pairs, keeping the running sum over the second
  node in a scratch buffer: zeroed at the first tile of a grid row, copied to the output block at the last. The
  reference concatenates [H[a], H[b], E[a,b]], multiplies the concatenation by A[a,b] and contracts it with X.

  Over the extended reals the two agree when the inputs are finite: the reference's contraction over 160 rows splits
  into the three bands, and the mask factors out of each band's sum by distributivity over real numbers; the sum
  over 1024 second nodes is the sum over 8 tiles of 128. The logistic is one function on both sides; the changes of
  float format in the kernel are the identity on extended reals.

  The three programs run to the end and leave their arguments unchanged: the reference as a straight line of host
  operations, the kernel (read at words and at extended reals) by the run of its region, whose body is run once per
  case of its two conditionals.
-/
import proofs.«126757_j3418793968215_1_alg».proof.Defs
import proofs.«126757_j3418793968215_1_alg».proof.Proof.Gen.Kernel
import proofs.«126757_j3418793968215_1_alg».proof.Proof.Gen.KernelIdeal
import proofs.«126757_j3418793968215_1_alg».proof.Proof.Gen.ReferenceIdeal
import proofs.«126757_j3418793968215_1_alg».proof.Proof.Gen.Pre_finite_inputs
import proofs.«126757_j3418793968215_1_alg».proof.Proof.KernelFrame.Run
import proofs.«126757_j3418793968215_1_alg».proof.Proof.KernelIdealFrame.Value
import proofs.«126757_j3418793968215_1_alg».proof.Proof.RefValue
import proofs.«126757_j3418793968215_1_alg».proof.Proof.Finite
import Idealize.ShloMosaic.Adequacy
import Idealize.ShloMosaic.Init

noncomputable section

namespace Cert.Proof

open Idealize.ShloMosaic Idealize.ShloMosaic.TcCoe Idealize.SL.Sem

/-- The kernel, read at words, runs and leaves its arguments unchanged. -/
theorem frame_k : Cert.frame_Kernel := fun m ρ _ => Cert.Kernel.Fr.frame m ρ

/-- The kernel, read at extended reals, runs and leaves its arguments unchanged. -/
theorem frame_ki : Cert.frame_KernelIdeal := fun m ρ _ => Cert.KernelIdeal.Fr.frame m ρ

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on finite arguments both programs end with the layer of the arguments in their result. -/
theorem algebraic : Cert.algebraic_KernelIdeal_ReferenceIdeal := by
  intro m ρ m' ρ' hpre hagree
  refine ⟨fun c => Cert.KernelIdeal.Fr.result m c, Cert.KernelIdeal.Fr.value_run m ρ, ?_⟩
  have h0 : ∀ (c : Dev Cert.ReferenceIdeal.nD) (i : Cert.ReferenceIdeal.S1024x64.Idx), ∃ x : ℝ,
      m' ((c.tc : Thread Cert.ReferenceIdeal.nD Cert.ReferenceIdeal.τ).loc Cert.ReferenceIdeal.main_arg0) i = (x : EReal) :=
    fun c i => by rw [(hagree c).1]; exact (Cert.Gnn.finite_of_pre m hpre c).1 i
  have h1 : ∀ (c : Dev Cert.ReferenceIdeal.nD) (i : Cert.ReferenceIdeal.S1024x1024.Idx), ∃ x : ℝ,
      m' ((c.tc : Thread Cert.ReferenceIdeal.nD Cert.ReferenceIdeal.τ).loc Cert.ReferenceIdeal.main_arg1) i = (x : EReal) :=
    fun c i => by rw [(hagree c).2.1]; exact (Cert.Gnn.finite_of_pre m hpre c).2.1 i
  have h2 : ∀ (c : Dev Cert.ReferenceIdeal.nD) (i : Cert.ReferenceIdeal.S1024x1024x32.Idx), ∃ x : ℝ,
      m' ((c.tc : Thread Cert.ReferenceIdeal.nD Cert.ReferenceIdeal.τ).loc Cert.ReferenceIdeal.main_arg2) i = (x : EReal) :=
    fun c i => by rw [(hagree c).2.2.1]; exact (Cert.Gnn.finite_of_pre m hpre c).2.2.1 i
  have h3 : ∀ (c : Dev Cert.ReferenceIdeal.nD) (i : Cert.ReferenceIdeal.S160x64.Idx), ∃ x : ℝ,
      m' ((c.tc : Thread Cert.ReferenceIdeal.nD Cert.ReferenceIdeal.τ).loc Cert.ReferenceIdeal.main_arg3) i = (x : EReal) :=
    fun c i => by rw [(hagree c).2.2.2.1]; exact (Cert.Gnn.finite_of_pre m hpre c).2.2.2.1 i
  have h4 : ∀ (c : Dev Cert.ReferenceIdeal.nD) (i : Cert.ReferenceIdeal.S160x64.Idx), ∃ x : ℝ,
      m' ((c.tc : Thread Cert.ReferenceIdeal.nD Cert.ReferenceIdeal.τ).loc Cert.ReferenceIdeal.main_arg4) i = (x : EReal) :=
    fun c i => by rw [(hagree c).2.2.2.2.1]; exact (Cert.Gnn.finite_of_pre m hpre c).2.2.2.2.1 i
  refine (θ_run Cert.ReferenceIdeal.defs _ _).mono (fun _ h c => ⟨(h c).1.trans ?_, (h c).2⟩)
    (Cert.Gnn.Ref.ref_run m' ρ' h0 h1 h2 h3 h4)
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
